-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S1x128 .f32) (main_arg15 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1x128 .f32 := Host.absf main_arg14
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg15 main_v63 main_v67

def fn_part2 {F : FTy → Type} [FloatOps F] (main_arg8 : FVec F S256x512 .f32) (main_arg9 : FVec F S128x256 .f32) (main_arg10 : FVec F S128 .f32) (main_arg11 : FVec F S128x256 .f32) (main_arg12 : FVec F S128x128 .f32) (main_arg13 : FVec F S128 .f32) (main_arg14 : FVec F S1x128 .f32) (main_arg15 : FVec F S1 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_arg15 main_v48 main_v49 main_v50

def fn_part1 {F : FTy → Type} [FloatOps F] (main_arg5 : FVec F S512 .f32) (main_arg6 : FVec F S256x512 .f32) (main_arg7 : FVec F S256 .f32) (main_arg8 : FVec F S256x512 .f32) (main_arg9 : FVec F S128x256 .f32) (main_arg10 : FVec F S128 .f32) (main_arg11 : FVec F S128x256 .f32) (main_arg12 : FVec F S128x128 .f32) (main_arg13 : FVec F S128 .f32) (main_arg14 : FVec F S1x128 .f32) (main_arg15 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x512 .f32) (main_arg1 : FVec F S50000x512 .f32) (main_arg2 : FVec F S50000x512 .f32) (main_arg3 : IVec S2x1600000 32) (main_arg4 : FVec F S512x1024 .f32) (main_arg5 : FVec F S512 .f32) (main_arg6 : FVec F S256x512 .f32) (main_arg7 : FVec F S256 .f32) (main_arg8 : FVec F S256x512 .f32) (main_arg9 : FVec F S128x256 .f32) (main_arg10 : FVec F S128 .f32) (main_arg11 : FVec F S128x256 .f32) (main_arg12 : FVec F S128x128 .f32) (main_arg13 : FVec F S128 .f32) (main_arg14 : FVec F S1x128 .f32) (main_arg15 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S50000x512 .f32 := Host.absf main_arg2
  let main_cst_2 : FVec F S_ .f32 := constant S_ .f32 0x7F800000#32
  let main_v10 : FVec F S50000x512 .f32 := broadcastInDim S50000x512 ![] bcast_S_S50000x512 main_cst_2
  let main_v11 : IVec S50000x512 1 := cmpf .olt main_v9 main_v10
  let main_c_3 : IVec S_ 1 := constantI S_ 1 1#1
  let main_v12 : IVec S_ 1 := (fun x v => Host.reduce IntOp.andi x v reducesTo_S50000x512_S_d0_1 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x512 : Shape := ⟨2, ![50000, 512]⟩
abbrev S2x1600000 : Shape := ⟨2, ![2, 1600000]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S512x512 : Shape := ⟨2, ![512, 512]⟩
abbrev S1x512 : Shape := ⟨2, ![1, 512]⟩
abbrev S1x256 : Shape := ⟨2, ![1, 256]⟩
abbrev S50000x128 : Shape := ⟨2, ![50000, 128]⟩
abbrev S1000x512 : Shape := ⟨2, ![1000, 512]⟩
abbrev S1000x128 : Shape := ⟨2, ![1000, 128]⟩
abbrev S512x256 : Shape := ⟨2, ![512, 256]⟩
abbrev S1000x256 : Shape := ⟨2, ![1000, 256]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x1 : Shape := ⟨2, ![1, 1]⟩
abbrev S5000x128 : Shape := ⟨2, ![5000, 128]⟩
abbrev S5000x1 : Shape := ⟨2, ![5000, 1]⟩
abbrev S128x1 : Shape := ⟨2, ![128, 1]⟩

abbrev nBuf : Space → Nat
  | .hbm => 87
  | .vmem => 23
  | .smem => 0
  | _ => 0

abbrev bufTy : (tb : Table) → Fin (tcTables nBuf tb) → BufTy
  | .hbm, ⟨0, _⟩ => ⟨S50000x512, .f32⟩
  | .hbm, ⟨1, _⟩ => ⟨S50000x512, .f32⟩
  | .hbm, ⟨2, _⟩ => ⟨S50000x512, .f32⟩
  | .hbm, ⟨3, _⟩ => ⟨S2x1600000, .i32⟩
  | .hbm, ⟨4, _⟩ => ⟨S512x1024, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S256x512, .f32⟩
  | .hbm, ⟨9, _⟩ => ⟨S128x256, .f32⟩
  | .hbm, ⟨10, _⟩ => ⟨S128, .f32⟩
  | .hbm, ⟨11, _⟩ => ⟨S128x256, .f32⟩
  | .hbm, ⟨12, _⟩ => ⟨S128x128, .f32⟩
  | .hbm, ⟨13, _⟩ => ⟨S128, .f32⟩
  | .hbm, ⟨14, _⟩ => ⟨S1x128, .f32⟩
  | .hbm, ⟨15, _⟩ => ⟨S1, .f32⟩
  | .hbm, ⟨16, _⟩ => ⟨S512x512, .f32⟩
  | .hbm, ⟨17, _⟩ => ⟨S512x512, .bf16⟩
  | .hbm, ⟨18, _⟩ => ⟨S512x512, .f32⟩
  | .hbm, ⟨19, _⟩ => ⟨S512x512, .bf16⟩
  | .hbm, ⟨20, _⟩ => ⟨S256x512, .bf16⟩
  | .hbm, ⟨21, _⟩ => ⟨S256x512, .bf16⟩
  | .hbm, ⟨22, _⟩ => ⟨S128x256, .bf16⟩
  | .hbm, ⟨23, _⟩ => ⟨S128x256, .bf16⟩
  | .hbm, ⟨24, _⟩ => ⟨S128x128, .bf16⟩
  | .hbm, ⟨25, _⟩ => ⟨S1x512, .f32⟩
  | .hbm, ⟨26, _⟩ => ⟨S1x256, .f32⟩
  | .hbm, ⟨27, _⟩ => ⟨S1x128, .f32⟩
  | .hbm, ⟨28, _⟩ => ⟨S50000x128, .f32⟩
  | .hbm, ⟨29, _⟩ => ⟨S1x1600000, .i32⟩
  | .hbm, ⟨30, _⟩ => ⟨S1600000, .i32⟩
  | .hbm, ⟨31, _⟩ => ⟨S1x1600000, .i32⟩
  | .hbm, ⟨32, _⟩ => ⟨S1600000, .i32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S50000, .f32⟩
  | .hbm, ⟨37, _⟩ => ⟨S1600000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000, .f32⟩
  | .hbm, ⟨61, _⟩ => ⟨S1600000, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S1600000x1, .f32⟩
  | .hbm, ⟨72, _⟩ => ⟨S1600000x128, .f32⟩
  | .hbm, ⟨73, _⟩ => ⟨S1600000x128, .f32⟩
  | .hbm, ⟨74, _⟩ => ⟨S_, .f32⟩
  | .hbm, ⟨75, _⟩ => ⟨S50000x128, .f32⟩
  | .hbm, ⟨76, _⟩ => ⟨S1600000x1, .i32⟩
  | .hbm, ⟨77, _⟩ => ⟨S50000x128, .f32⟩
  | .hbm, ⟨78, _⟩ => ⟨S50000, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S1x128, .bf16⟩
  | .hbm, ⟨85, _⟩ => ⟨S1x1, .f32⟩
  | .hbm, ⟨86, _⟩ => ⟨S50000x1, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S256x512, .bf16⟩
  | .local _ .vmem, ⟨8, _⟩ => ⟨S1x256, .f32⟩
  | .local _ .vmem, ⟨9, _⟩ => ⟨S256x512, .bf16⟩
  | .local _ .vmem, ⟨10, _⟩ => ⟨S128x256, .bf16⟩
  | .local _ .vmem, ⟨11, _⟩ => ⟨S1x128, .f32⟩
  | .local _ .vmem, ⟨12, _⟩ => ⟨S128x256, .bf16⟩
  | .local _ .vmem, ⟨13, _⟩ => ⟨S128x128, .bf16⟩
  | .local _ .vmem, ⟨14, _⟩ => ⟨S1000x128, .f32⟩
  | .local _ .vmem, ⟨15, _⟩ => ⟨S1000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .bf16⟩
  | .local _ .vmem, ⟨20, _⟩ => ⟨S1x1, .f32⟩
  | .local _ .vmem, ⟨21, _⟩ => ⟨S5000x1, .f32⟩
  | .local _ .vmem, ⟨22, _⟩ => ⟨S5000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_cst_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_c_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S512x1024_S512x512_0_0 : S512x1024.Slices ![0, 0] S512x512
  bitsLt_bf16_f32 : FTy.bits .bf16 < FTy.bits .f32
  slices_S512x1024_S512x512_0_512 : S512x1024.Slices ![0, 512] S512x512
  shapeCasts_S512_S1x512 : S512.ShapeCasts S1x512
  shapeCasts_S256_S1x256 : S256.ShapeCasts S1x256
  shapeCasts_S128_S1x128 : S128.ShapeCasts S1x128
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1000x128_S1000x128_0_0 : ∀ a, (![0, 0] : Fin 2 → Nat) a + S1000x128.size a ≤ S1000x128.size a
  h_S1000x128 : 0 < S1000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .bf16 = 32 ∨ (Rect.block (s := S128x256) S128x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S128x256.size a
  hwx0_10 : ∀ i : grid0.Coords, EltTy.bits .bf16 = 32 ∨ (Rect.block (s := S128x256) S128x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x128.size a ≤ S50000x128.size a
  hwx0_12 : ∀ i : grid0.Coords, EltTy.bits .f32 = 32 ∨ (Rect.block (s := S50000x128) S1000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .bf16 = 32 ∨ (Rect.block (s := S1x128) S1x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg1) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S128x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S50000x1024 : Shape := ⟨2, ![50000, 1024]⟩
abbrev S1024x512 : Shape := ⟨2, ![1024, 512]⟩
abbrev S1x512 : Shape := ⟨2, ![1, 512]⟩
abbrev S_ : Shape := ⟨0, ![]⟩
abbrev S512x256 : Shape := ⟨2, ![512, 256]⟩
abbrev S50000x256 : Shape := ⟨2, ![50000, 256]⟩
abbrev S1x256 : Shape := ⟨2, ![1, 256]⟩
abbrev S256x128 : Shape := ⟨2, ![256, 128]⟩
abbrev S50000x128 : Shape := ⟨2, ![50000, 128]⟩
abbrev S1x1600000 : Shape := ⟨2, ![1, 1600000]⟩
abbrev S1600000 : Shape := ⟨1, ![1600000]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S128x1 : Shape := ⟨2, ![128, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S50000x512, .f32⟩
  | 1 => ⟨S50000x512, .f32⟩
  | 2 => ⟨S50000x512, .f32⟩
  | 3 => ⟨S2x1600000, .i32⟩
  | 4 => ⟨S512x1024, .f32⟩
  | 5 => ⟨S512, .f32⟩
  | 6 => ⟨S256x512, .f32⟩
  | 7 => ⟨S256, .f32⟩
  | 8 => ⟨S256x512, .f32⟩
  | 9 => ⟨S128x256, .f32⟩
  | 10 => ⟨S128, .f32⟩
  | 11 => ⟨S128x256, .f32⟩
  | 12 => ⟨S128x128, .f32⟩
  | 13 => ⟨S128, .f32⟩
  | 14 => ⟨S1x128, .f32⟩
  | 15 => ⟨S1, .f32⟩
  | 16 => ⟨S50000x1024, .f32⟩
  | 17 => ⟨S1024x512, .f32⟩
  | 18 => ⟨S50000x512, .f32⟩
  | 19 => ⟨S1x512, .f32⟩
  | 20 => ⟨S50000x512, .f32⟩
  | 21 => ⟨S50000x512, .f32⟩
  | 22 => ⟨S_, .f32⟩
  | 23 => ⟨S50000x512, .f32⟩
  | 24 => ⟨S50000x512, .f32⟩
  | 25 => ⟨S512x256, .f32⟩
  | 26 => ⟨S50000x256, .f32⟩
  | 27 => ⟨S1x256, .f32⟩
  | 28 => ⟨S50000x256, .f32⟩
  | 29 => ⟨S50000x256, .f32⟩
  | 30 => ⟨S_, .f32⟩
  | 31 => ⟨S50000x256, .f32⟩
  | 32 => ⟨S50000x256, .f32⟩
  | 33 => ⟨S512x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S256x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S256x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S128x128, .f32⟩
  | 54 => ⟨S50000x128, .f32⟩
  | 55 => ⟨S1x1600000, .i32⟩
  | 56 => ⟨S1600000, .i32⟩
  | 57 => ⟨S1x1600000, .i32⟩
  | 58 => ⟨S1600000, .i32⟩
  | 59 => ⟨S_, .f32⟩
  | 60 => ⟨S1600000, .f32⟩
  | 61 => ⟨S_, .f32⟩
  | 62 => ⟨S50000, .f32⟩
  | 63 => ⟨S1600000x1, .i32⟩
  | 64 => ⟨S50000, .f32⟩
  | 65 => ⟨S_, .f32⟩
  | 66 => ⟨S50000, .f32⟩
  | 67 => ⟨S50000, .f32⟩
  | 68 => ⟨S50000, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S1600000x1, .f32⟩
  | 98 => ⟨S1600000x128, .f32⟩
  | 99 => ⟨S1600000x128, .f32⟩
  | 100 => ⟨S_, .f32⟩
  | 101 => ⟨S50000x128, .f32⟩
  | 102 => ⟨S1600000x1, .i32⟩
  | 103 => ⟨S50000x128, .f32⟩
  | 104 => ⟨S50000, .f32⟩
  | 105 => ⟨S50000x1, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S128x1, .f32⟩
  | 116 => ⟨S50000x1, .f32⟩
  | 117 => ⟨S1x1, .f32⟩
  | 118 => ⟨S50000x1, .f32⟩
  | 119 => ⟨S50000x1, .f32⟩
  | 120 => ⟨S50000x1, .f32⟩
  | 121 => ⟨S50000x1, .f32⟩
  | 122 => ⟨S_, .f32⟩
  | 123 => ⟨S50000x1, .f32⟩
  | 124 => ⟨S50000x1, .f32⟩
  | 125 => ⟨S_, .f32⟩
  | 126 => ⟨S50000x1, .f32⟩
  | 127 => ⟨S50000x1, .f32⟩
  | _ => ⟨S50000x512, .f32⟩

abbrev hbmTy0_1 (i : Nat) : BufTy := match i % 128 with
  | 0 => ⟨S50000x1, .f32⟩
  | 1 => ⟨S50000x1, .f32⟩
  | 2 => ⟨S_, .f32⟩
  | 3 => ⟨S50000x1, .f32⟩
  | 4 => ⟨S50000x1, .f32⟩
  | 5 => ⟨S_, .f32⟩
  | 6 => ⟨S50000x1, .f32⟩
  | 7 => ⟨S50000x1, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_cst : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call2_cst : Ref sig .tc := ⟨.hbm, 36, rfl⟩
abbrev main_call2_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call3_cst : Ref sig .tc := ⟨.hbm, 44, rfl⟩
abbrev main_call3_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call4_cst : Ref sig .tc := ⟨.hbm, 50, rfl⟩
abbrev main_call4_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst : Ref sig .tc := ⟨.hbm, 59, rfl⟩
abbrev main_v33 : Ref sig .tc := ⟨.hbm, 60, rfl⟩
abbrev main_cst_0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_1 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c : Ref sig .tc := ⟨.hbm, 69, rfl⟩
abbrev main_v40 : Ref sig .tc := ⟨.hbm, 70, rfl⟩
abbrev main_v41 : Ref sig .tc := ⟨.hbm, 71, rfl⟩
abbrev main_c_2 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_3 : Ref sig .tc := ⟨.hbm, 78, rfl⟩
abbrev main_v47 : Ref sig .tc := ⟨.hbm, 79, rfl⟩
abbrev main_v48 : Ref sig .tc := ⟨.hbm, 80, rfl⟩
abbrev main_c_4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_5 : Ref sig .tc := ⟨.hbm, 88, rfl⟩
abbrev main_v55 : Ref sig .tc := ⟨.hbm, 89, rfl⟩
abbrev main_v56 : Ref sig .tc := ⟨.hbm, 90, rfl⟩
abbrev main_c_6 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_7 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call5_cst : Ref sig .tc := ⟨.hbm, 112, rfl⟩
abbrev main_call5_v0 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_8 : Ref sig .tc := ⟨.hbm, 122, rfl⟩
abbrev main_v84 : Ref sig .tc := ⟨.hbm, 123, rfl⟩
abbrev main_v85 : Ref sig .tc := ⟨.hbm, 124, rfl⟩
abbrev main_cst_9 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_10 : Ref sig .tc := ⟨.hbm, 130, rfl⟩
abbrev main_v90 : Ref sig .tc := ⟨.hbm, 131, rfl⟩
abbrev main_v91 : Ref sig .tc := ⟨.hbm, 132, rfl⟩
abbrev main_cst_11 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  concatenates_S50000x512_S50000x512_S50000x1024_d1 : Shape.Concatenates [S50000x512, S50000x512] S50000x1024 1
  transposes_S512x1024_S1024x512_1_0 : S512x1024.Transposes [1, 0] S1024x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  transposes_S256x512_S512x256_1_0 : S256x512.Transposes [1, 0] S512x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x1024_S1024x512_S50000x512_1_0_0_1_n_n_wf : DotDims.WF S50000x1024 S1024x512 S50000x512 [1] [0] [0] [1] [] []
  dot_S50000x512_S512x256_S50000x256_1_0_0_1_n_n_wf : DotDims.WF S50000x512 S512x256 S50000x256 [1] [0] [0] [1] [] []
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x1_S50000x1_1_0_0_1_n_n_wf : DotDims.WF S50000x128 S128x1 S50000x1 [1] [0] [0] [1] [] []

variable [Facts₀]

def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The first program's run, with the result named.

  The program is four segments: host operations, the first grid of kernel points, host operations, the second grid
  of kernel points. Every weakly fair execution terminates without a fault in a state where every unscoped buffer
  holds the contents the segments' fold assigns it at the last boundary; read at the result buffer this is the
  second grid's output array after its write-backs, and read at each argument it is the argument as launched.
-/
import proofs.«122741_j77481210020193_1_alg».proof.Proof.Gen.KernelIdeal.Frame

set_option maxRecDepth 16384

noncomputable section

namespace Cert.LinkKernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument as launched. -/
theorem run_result : θ_run defs (onTc (τ := τ) (main (F := F))) ⟨m, fun _ => 0, ρ⟩ (fun r => ∀ c : Dev nD,
      r.2.mem ((c.tc : Thread nD τ).loc main_v60) = W4 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v60 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.LinkKernel

end
-- ==== Proof.Spec.lean ====
/-
  The link predictor as mathematics on the extended reals, with no program in sight.

  A node's pair features (a row of x_i and a row of x_j, 512 numbers each) go through a linear layer on their
  concatenation, a relu, two residual blocks (512 -> 256 -> 128) and a last linear layer (128 -> 128): that row of
  128 numbers is the node's projected feature. The graph convolution that follows mixes rows and is treated
  elsewhere as one opaque function of the projected features and the edge list. Its result, one row of 128 per
  node, goes through relu(. + b_gcn), a dot product with the one row of W_fc, a bias, and the logistic function
  twice.

  The one piece of algebra is that a sum over the 1024 concatenated features is the sum over the first 512 plus
  the sum over the last 512; it holds in any additive commutative monoid, so no finiteness is needed.
-/
import Idealize.ShloMosaic.PureOps.Ideal
import Idealize.ShloMosaic.Lib.ValueIdx

noncomputable section

open scoped BigOperators

namespace Cert.LinkSpec

open Idealize.ShloMosaic Idealize.ShloMosaic.ValueIdx

/-- A matrix of extended reals with `a` rows and `b` columns. -/
abbrev Mat (a b : Nat) : Type := (⟨2, ![a, b]⟩ : Shape).Idx → EReal
/-- A vector of extended reals with `a` entries. -/
abbrev Vc (a : Nat) : Type := (⟨1, ![a]⟩ : Shape).Idx → EReal

/-- The number the all-zero word denotes. -/
def zero : EReal := Ideal.ofBits .f32 0x00000000#32

/-- relu: the larger of `x` and zero. -/
def relu (x : EReal) : EReal := max x zero

/-- One row through a linear layer without bias: entry `c` is the dot product of the row with row `c` of `W`. -/
def lin {K N : Nat} (W : Mat N K) (h : Fin K → EReal) (c : Fin N) : EReal := ∑ k : Fin K, h k * W (ix2 c k)

/-- Position `k` of the first half of the concatenated features. -/
def lo (k : Fin 512) : Fin 1024 := ⟨k.val, by omega⟩
/-- Position `k` of the second half of the concatenated features. -/
def hi (k : Fin 512) : Fin 1024 := ⟨512 + k.val, by omega⟩

/-- The first layer on a row of x_i and a row of x_j: each against its own half of W_cat, the two sums added,
    plus the bias, through relu. -/
def first (xi xj : Fin 512 → EReal) (Wi Wj : Mat 512 512) (bc : Fin 512 → EReal) (c : Fin 512) : EReal :=
  relu ((lin Wi xi c + lin Wj xj c) + bc c)

/-- A residual block: relu (relu (W h + b) + A h). -/
def block {K N : Nat} (W A : Mat N K) (b : Fin N → EReal) (h : Fin K → EReal) (c : Fin N) : EReal :=
  relu (relu (lin W h c + b c) + lin A h c)

/-- A node's projected feature row from its row of x_i and its row of x_j. -/
def projRow (xi xj : Fin 512 → EReal) (Wi Wj : Mat 512 512) (bc : Fin 512 → EReal) (W1 A1 : Mat 256 512)
    (b1 : Fin 256 → EReal) (W2 A2 : Mat 128 256) (b2 : Fin 128 → EReal) (Wg : Mat 128 128) : Fin 128 → EReal :=
  lin Wg (block W2 A2 b2 (block W1 A1 b1 (first xi xj Wi Wj bc)))

/-- The columns of W_cat that meet x_i. -/
def loHalf (Wc : Mat 512 1024) : Mat 512 512 := fun i => Wc (ix2 (i 0) (lo (i 1)))
/-- The columns of W_cat that meet x_j. -/
def hiHalf (Wc : Mat 512 1024) : Mat 512 512 := fun i => Wc (ix2 (i 0) (hi (i 1)))

/-- The projected features of all nodes, entry (n, c). -/
def projAt (xi xj : Mat 50000 512) (Wc : Mat 512 1024) (bc : Vc 512) (W1 A1 : Mat 256 512) (b1 : Vc 256)
    (W2 A2 : Mat 128 256) (b2 : Vc 128) (Wg : Mat 128 128) (n : Fin 50000) (c : Fin 128) : EReal :=
  projRow (fun k => xi (ix2 n k)) (fun k => xj (ix2 n k)) (loHalf Wc) (hiHalf Wc) (fun q => bc (ix1 q))
    W1 A1 (fun q => b1 (ix1 q)) W2 A2 (fun q => b2 (ix1 q)) Wg c

/-- The projected features of all nodes as an array. -/
def proj (xi xj : Mat 50000 512) (Wc : Mat 512 1024) (bc : Vc 512) (W1 A1 : Mat 256 512) (b1 : Vc 256)
    (W2 A2 : Mat 128 256) (b2 : Vc 128) (Wg : Mat 128 128) : Mat 50000 128 :=
  fun i => projAt xi xj Wc bc W1 A1 b1 W2 A2 b2 Wg (i 0) (i 1)

/-- A node's score from its aggregated row: relu (agg + b_gcn) against W_fc's one row, plus b_fc, through the
    logistic function twice. -/
def scoreRow (agg bg wf : Fin 128 → EReal) (bf : EReal) : EReal :=
  Ideal.logistic (Ideal.logistic ((∑ k : Fin 128, relu (agg k + bg k) * wf k) + bf))

/-- The score of node `n`. -/
def scoreAt (agg : Mat 50000 128) (bg : Vc 128) (Wf : Mat 1 128) (bf : Vc 1) (n : Fin 50000) : EReal :=
  scoreRow (fun k => agg (ix2 n k)) (fun k => bg (ix1 k)) (fun k => Wf (ix2 (0 : Fin 1) k)) (bf (ix1 (0 : Fin 1)))

/-- The scores of all nodes as a one-column array. -/
def score (agg : Mat 50000 128) (bg : Vc 128) (Wf : Mat 1 128) (bf : Vc 1) : Mat 50000 1 :=
  fun i => scoreAt agg bg Wf bf (i 0)

theorem proj_ix2 (xi xj : Mat 50000 512) (Wc : Mat 512 1024) (bc : Vc 512) (W1 A1 : Mat 256 512) (b1 : Vc 256)
    (W2 A2 : Mat 128 256) (b2 : Vc 128) (Wg : Mat 128 128) (n : Fin 50000) (c : Fin 128) :
    proj xi xj Wc bc W1 A1 b1 W2 A2 b2 Wg (ix2 n c) = projAt xi xj Wc bc W1 A1 b1 W2 A2 b2 Wg n c := rfl

theorem score_ix2 (agg : Mat 50000 128) (bg : Vc 128) (Wf : Mat 1 128) (bf : Vc 1) (n : Fin 50000) (u : Fin 1) :
    score agg bg Wf bf (ix2 n u) = scoreAt agg bg Wf bf n := rfl

theorem loHalf_ix2 (Wc : Mat 512 1024) (c k : Fin 512) : loHalf Wc (ix2 c k) = Wc (ix2 c (lo k)) := rfl
theorem hiHalf_ix2 (Wc : Mat 512 1024) (c k : Fin 512) : hiHalf Wc (ix2 c k) = Wc (ix2 c (hi k)) := rfl

/-- A sum over the 1024 concatenated positions is the sum over the first half plus the sum over the second. -/
theorem sum_halves {M : Type*} [AddCommMonoid M] (f : Fin 1024 → M) :
    ∑ k : Fin 1024, f k = (∑ k : Fin 512, f (lo k)) + ∑ k : Fin 512, f (hi k) := by
  have h := Fin.sum_univ_add (a := 512) (b := 512) (f : Fin (512 + 512) → M)
  refine h.trans ?_
  congr 1

end Cert.LinkSpec

end
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.KernelMatmul.lean ====
/-
  Matrix products of the two kernel bodies read at one entry.

  Every product in the bodies multiplies a block of rows by the TRANSPOSE of a weight matrix stored row-major
  as [outputs, inputs], into a zero accumulator. Entry (p, c) of such a product is the dot product of row p of
  the block with row c of the weight matrix: one row through a linear layer.
-/
import proofs.«122741_j77481210020193_1_alg».proof.Proof.Gen.KernelIdeal
import proofs.«122741_j77481210020193_1_alg».proof.Proof.Spec
import proofs.«122741_j77481210020193_1_alg».proof.Proof.LibMatmulPlain
import Idealize.ShloMosaic.Lib.ValueLayout

noncomputable section

open scoped BigOperators

namespace Cert.LinkKernel

open Idealize.ShloMosaic Idealize.ShloMosaic.ValueIdx Cert.KernelIdeal Cert.KernelIdeal.Gen Cert.LinkSpec

/-- A block of rows times the transpose of a weight matrix, into a zero accumulator, at entry (p, c): the dot
    product of the block's row p with the weight matrix's row c. The record's contraction facts are hypotheses. -/
theorem matmulT_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (W : FVec Ideal ⟨2, ![N, K]⟩ φ₂)
    (hsc : (⟨2, ![N, K]⟩ : Shape).ShapeCasts ⟨2, ![N, K]⟩)
    (htr : (⟨2, ![N, K]⟩ : Shape).Transposes [1, 0] ⟨2, ![K, N]⟩) (p : Fin M) (c : Fin N) :
    FloatOps.matmul D none lhs (transpose ⟨2, ![K, N]⟩ [1, 0] (shapeCast ⟨2, ![N, K]⟩ W hsc) htr)
        (constant (F := Ideal) ⟨2, ![M, N]⟩ .f32 0x00000000#32) (ix2 p c)
      = lin W (fun k => lhs (ix2 p k)) c := by
  rw [Idealize.ShloMosaic.MatmulPlain.matmul_zero_apply D none hr hs hl0 hl1 hr0 hr1]
  unfold lin
  refine Finset.sum_congr rfl fun k _ => ?_
  rw [transpose_ix2_apply, shapeCast_self]

/-- Entry (p, c) of the product of an [1000, 512] array with the transpose of an [512, 512] weight matrix. -/
theorem mm_D0 {φ₁ φ₂ : FTy} (lhs : FVec Ideal S1000x512 φ₁) (W : FVec Ideal S512x512 φ₂)
    (hsc : S512x512.ShapeCasts S512x512) (htr : S512x512.Transposes [1, 0] S512x512) (p : Fin 1000) (c : Fin 512) :
    FloatOps.matmul dot_S1000x512_S512x512_S1000x512_1_0_0_1_n_n none lhs (transpose S512x512 [1, 0] (shapeCast S512x512 W hsc) htr)
        (constant (F := Ideal) S1000x512 .f32 0x00000000#32) (ix2 p c)
      = lin W (fun k => lhs (ix2 p k)) c :=
  matmulT_apply dot_S1000x512_S512x512_S1000x512_1_0_0_1_n_n rfl rfl
    (fun i q => by
      unfold DotDims.lhsIdx
      rw [dif_neg (show ¬(0 : Fin S1000x512.rank) ∈ dot_S1000x512_S512x512_S1000x512_1_0_0_1_n_n.lhsBatch by decide),
        dif_pos (show (0 : Fin S1000x512.rank) ∈ dot_S1000x512_S512x512_S1000x512_1_0_0_1_n_n.lhsNonContracting by decide)]
      rfl)
    (fun i q => dot_S1000x512_S512x512_S1000x512_1_0_0_1_n_n.lhsIdx_val_of_single rfl i q)
    (fun i q => dot_S1000x512_S512x512_S1000x512_1_0_0_1_n_n.rhsIdx_val_of_single rfl i q)
    (fun i q => by
      unfold DotDims.rhsIdx
      rw [dif_neg (show ¬(1 : Fin S512x512.rank) ∈ dot_S1000x512_S512x512_S1000x512_1_0_0_1_n_n.rhsBatch by decide),
        dif_pos (show (1 : Fin S512x512.rank) ∈ dot_S1000x512_S512x512_S1000x512_1_0_0_1_n_n.rhsNonContracting by decide)]
      rfl)
    lhs W hsc htr p c

/-- Entry (p, c) of the product of an [1000, 512] array with the transpose of an [256, 512] weight matrix. -/
theorem mm_D1 {φ₁ φ₂ : FTy} (lhs : FVec Ideal S1000x512 φ₁) (W : FVec Ideal S256x512 φ₂)
    (hsc : S256x512.ShapeCasts S256x512) (htr : S256x512.Transposes [1, 0] S512x256) (p : Fin 1000) (c : Fin 256) :
    FloatOps.matmul dot_S1000x512_S512x256_S1000x256_1_0_0_1_n_n none lhs (transpose S512x256 [1, 0] (shapeCast S256x512 W hsc) htr)
        (constant (F := Ideal) S1000x256 .f32 0x00000000#32) (ix2 p c)
      = lin W (fun k => lhs (ix2 p k)) c :=
  matmulT_apply dot_S1000x512_S512x256_S1000x256_1_0_0_1_n_n rfl rfl
    (fun i q => by
      unfold DotDims.lhsIdx
      rw [dif_neg (show ¬(0 : Fin S1000x512.rank) ∈ dot_S1000x512_S512x256_S1000x256_1_0_0_1_n_n.lhsBatch by decide),
        dif_pos (show (0 : Fin S1000x512.rank) ∈ dot_S1000x512_S512x256_S1000x256_1_0_0_1_n_n.lhsNonContracting by decide)]
      rfl)
    (fun i q => dot_S1000x512_S512x256_S1000x256_1_0_0_1_n_n.lhsIdx_val_of_single rfl i q)
    (fun i q => dot_S1000x512_S512x256_S1000x256_1_0_0_1_n_n.rhsIdx_val_of_single rfl i q)
    (fun i q => by
      unfold DotDims.rhsIdx
      rw [dif_neg (show ¬(1 : Fin S512x256.rank) ∈ dot_S1000x512_S512x256_S1000x256_1_0_0_1_n_n.rhsBatch by decide),
        dif_pos (show (1 : Fin S512x256.rank) ∈ dot_S1000x512_S512x256_S1000x256_1_0_0_1_n_n.rhsNonContracting by decide)]
      rfl)
    lhs W hsc htr p c

/-- Entry (p, c) of the product of an [1000, 256] array with the transpose of an [128, 256] weight matrix. -/
theorem mm_D2 {φ₁ φ₂ : FTy} (lhs : FVec Ideal S1000x256 φ₁) (W : FVec Ideal S128x256 φ₂)
    (hsc : S128x256.ShapeCasts S128x256) (htr : S128x256.Transposes [1, 0] S256x128) (p : Fin 1000) (c : Fin 128) :
    FloatOps.matmul dot_S1000x256_S256x128_S1000x128_1_0_0_1_n_n none lhs (transpose S256x128 [1, 0] (shapeCast S128x256 W hsc) htr)
        (constant (F := Ideal) S1000x128 .f32 0x00000000#32) (ix2 p c)
      = lin W (fun k => lhs (ix2 p k)) c :=
  matmulT_apply dot_S1000x256_S256x128_S1000x128_1_0_0_1_n_n rfl rfl
    (fun i q => by
      unfold DotDims.lhsIdx
      rw [dif_neg (show ¬(0 : Fin S1000x256.rank) ∈ dot_S1000x256_S256x128_S1000x128_1_0_0_1_n_n.lhsBatch by decide),
        dif_pos (show (0 : Fin S1000x256.rank) ∈ dot_S1000x256_S256x128_S1000x128_1_0_0_1_n_n.lhsNonContracting by decide)]
      rfl)
    (fun i q => dot_S1000x256_S256x128_S1000x128_1_0_0_1_n_n.lhsIdx_val_of_single rfl i q)
    (fun i q => dot_S1000x256_S256x128_S1000x128_1_0_0_1_n_n.rhsIdx_val_of_single rfl i q)
    (fun i q => by
      unfold DotDims.rhsIdx
      rw [dif_neg (show ¬(1 : Fin S256x128.rank) ∈ dot_S1000x256_S256x128_S1000x128_1_0_0_1_n_n.rhsBatch by decide),
        dif_pos (show (1 : Fin S256x128.rank) ∈ dot_S1000x256_S256x128_S1000x128_1_0_0_1_n_n.rhsNonContracting by decide)]
      rfl)
    lhs W hsc htr p c

/-- Entry (p, c) of the product of an [1000, 128] array with the transpose of an [128, 128] weight matrix. -/
theorem mm_D3 {φ₁ φ₂ : FTy} (lhs : FVec Ideal S1000x128 φ₁) (W : FVec Ideal S128x128 φ₂)
    (hsc : S128x128.ShapeCasts S128x128) (htr : S128x128.Transposes [1, 0] S128x128) (p : Fin 1000) (c : Fin 128) :
    FloatOps.matmul dot_S1000x128_S128x128_S1000x128_1_0_0_1_n_n none lhs (transpose S128x128 [1, 0] (shapeCast S128x128 W hsc) htr)
        (constant (F := Ideal) S1000x128 .f32 0x00000000#32) (ix2 p c)
      = lin W (fun k => lhs (ix2 p k)) c :=
  matmulT_apply dot_S1000x128_S128x128_S1000x128_1_0_0_1_n_n rfl rfl
    (fun i q => by
      unfold DotDims.lhsIdx
      rw [dif_neg (show ¬(0 : Fin S1000x128.rank) ∈ dot_S1000x128_S128x128_S1000x128_1_0_0_1_n_n.lhsBatch by decide),
        dif_pos (show (0 : Fin S1000x128.rank) ∈ dot_S1000x128_S128x128_S1000x128_1_0_0_1_n_n.lhsNonContracting by decide)]
      rfl)
    (fun i q => dot_S1000x128_S128x128_S1000x128_1_0_0_1_n_n.lhsIdx_val_of_single rfl i q)
    (fun i q => dot_S1000x128_S128x128_S1000x128_1_0_0_1_n_n.rhsIdx_val_of_single rfl i q)
    (fun i q => by
      unfold DotDims.rhsIdx
      rw [dif_neg (show ¬(1 : Fin S128x128.rank) ∈ dot_S1000x128_S128x128_S1000x128_1_0_0_1_n_n.rhsBatch by decide),
        dif_pos (show (1 : Fin S128x128.rank) ∈ dot_S1000x128_S128x128_S1000x128_1_0_0_1_n_n.rhsNonContracting by decide)]
      rfl)
    lhs W hsc htr p c

/-- Entry (p, c) of the product of an [5000, 128] array with the transpose of an [1, 128] weight matrix. -/
theorem mm_D4 {φ₁ φ₂ : FTy} (lhs : FVec Ideal S5000x128 φ₁) (W : FVec Ideal S1x128 φ₂)
    (hsc : S1x128.ShapeCasts S1x128) (htr : S1x128.Transposes [1, 0] S128x1) (p : Fin 5000) (c : Fin 1) :
    FloatOps.matmul dot_S5000x128_S128x1_S5000x1_1_0_0_1_n_n none lhs (transpose S128x1 [1, 0] (shapeCast S1x128 W hsc) htr)
        (constant (F := Ideal) S5000x1 .f32 0x00000000#32) (ix2 p c)
      = lin W (fun k => lhs (ix2 p k)) c :=
  matmulT_apply dot_S5000x128_S128x1_S5000x1_1_0_0_1_n_n rfl rfl
    (fun i q => by
      unfold DotDims.lhsIdx
      rw [dif_neg (show ¬(0 : Fin S5000x128.rank) ∈ dot_S5000x128_S128x1_S5000x1_1_0_0_1_n_n.lhsBatch by decide),
        dif_pos (show (0 : Fin S5000x128.rank) ∈ dot_S5000x128_S128x1_S5000x1_1_0_0_1_n_n.lhsNonContracting by decide)]
      rfl)
    (fun i q => dot_S5000x128_S128x1_S5000x1_1_0_0_1_n_n.lhsIdx_val_of_single rfl i q)
    (fun i q => dot_S5000x128_S128x1_S5000x1_1_0_0_1_n_n.rhsIdx_val_of_single rfl i q)
    (fun i q => by
      unfold DotDims.rhsIdx
      rw [dif_neg (show ¬(1 : Fin S128x1.rank) ∈ dot_S5000x128_S128x1_S5000x1_1_0_0_1_n_n.rhsBatch by decide),
        dif_pos (show (1 : Fin S128x1.rank) ∈ dot_S5000x128_S128x1_S5000x1_1_0_0_1_n_n.rhsNonContracting by decide)]
      rfl)
    lhs W hsc htr p c

end Cert.LinkKernel

end
-- ==== Proof.PayHead.lean ====
/-
  The first kernel body at one entry of its output block.

  For a block of 1000 nodes the body computes, row by row, the first layer on the node's rows of x_i and x_j,
  two residual blocks and the last projection; its matrix products are products with transposed weight blocks
  into zero accumulators, its biases are one-row blocks broadcast over the rows, and its changes of float format
  are the identity on the extended reals. So entry (p, c) of what it stores is the specification's projected row
  of node p of the block, at c.
-/
import proofs.«122741_j77481210020193_1_alg».proof.Proof.Gen.KernelIdeal.Skeleton
import proofs.«122741_j77481210020193_1_alg».proof.Proof.KernelMatmul

noncomputable section

open scoped BigOperators

namespace Cert.LinkKernel

open Idealize.ShloMosaic Idealize.ShloMosaic.ValueIdx Cert.KernelIdeal Cert.KernelIdeal.Gen Cert.LinkSpec

/-- The first hidden layer of a block of rows. -/
def hid0 (x0 x1 : FVec Ideal S1000x512 .f32) (x2 x3 : FVec Ideal S512x512 .bf16) (x4 : FVec Ideal S1x512 .f32) :
    FVec Ideal S1000x512 .f32 :=
  maximumf (addf (addf (FloatOps.matmul dot_S1000x512_S512x512_S1000x512_1_0_0_1_n_n none (truncf .bf16 x0 bitsLt_bf16_f32) (transpose S512x512 [1, 0] (shapeCast S512x512 x2 shapeCasts_S512x512_S512x512) transposes_S512x512_p1_0_S512x512) (constant S1000x512 .f32 0x00000000#32))
      (FloatOps.matmul dot_S1000x512_S512x512_S1000x512_1_0_0_1_n_n none (truncf .bf16 x1 bitsLt_bf16_f32) (transpose S512x512 [1, 0] (shapeCast S512x512 x3 shapeCasts_S512x512_S512x512) transposes_S512x512_p1_0_S512x512) (constant S1000x512 .f32 0x00000000#32)))
      (broadcastTo S1000x512 (shapeCast S1x512 x4 shapeCasts_S1x512_S1x512) broadcasts_S1x512_S1000x512))
    (broadcast S1000x512 (Scalar.ofBits .f32 0x00000000#32))

/-- The first residual block of a block of rows. -/
def hid1 (h : FVec Ideal S1000x512 .f32) (x5 : FVec Ideal S256x512 .bf16) (x6 : FVec Ideal S1x256 .f32)
    (x7 : FVec Ideal S256x512 .bf16) : FVec Ideal S1000x256 .f32 :=
  maximumf (addf (maximumf (addf (FloatOps.matmul dot_S1000x512_S512x256_S1000x256_1_0_0_1_n_n none (truncf .bf16 h bitsLt_bf16_f32) (transpose S512x256 [1, 0] (shapeCast S256x512 x5 shapeCasts_S256x512_S256x512) transposes_S256x512_p1_0_S512x256) (constant S1000x256 .f32 0x00000000#32))
      (broadcastTo S1000x256 (shapeCast S1x256 x6 shapeCasts_S1x256_S1x256) broadcasts_S1x256_S1000x256)) (broadcast S1000x256 (Scalar.ofBits .f32 0x00000000#32)))
      (FloatOps.matmul dot_S1000x512_S512x256_S1000x256_1_0_0_1_n_n none (truncf .bf16 h bitsLt_bf16_f32) (transpose S512x256 [1, 0] (shapeCast S256x512 x7 shapeCasts_S256x512_S256x512) transposes_S256x512_p1_0_S512x256) (constant S1000x256 .f32 0x00000000#32)))
    (broadcast S1000x256 (Scalar.ofBits .f32 0x00000000#32))

/-- The second residual block of a block of rows. -/
def hid2 (h : FVec Ideal S1000x256 .f32) (x8 : FVec Ideal S128x256 .bf16) (x9 : FVec Ideal S1x128 .f32)
    (x10 : FVec Ideal S128x256 .bf16) : FVec Ideal S1000x128 .f32 :=
  maximumf (addf (maximumf (addf (FloatOps.matmul dot_S1000x256_S256x128_S1000x128_1_0_0_1_n_n none (truncf .bf16 h bitsLt_bf16_f32) (transpose S256x128 [1, 0] (shapeCast S128x256 x8 shapeCasts_S128x256_S128x256) transposes_S128x256_p1_0_S256x128) (constant S1000x128 .f32 0x00000000#32))
      (broadcastTo S1000x128 (shapeCast S1x128 x9 shapeCasts_S1x128_S1x128) broadcasts_S1x128_S1000x128)) (broadcast S1000x128 (Scalar.ofBits .f32 0x00000000#32)))
      (FloatOps.matmul dot_S1000x256_S256x128_S1000x128_1_0_0_1_n_n none (truncf .bf16 h bitsLt_bf16_f32) (transpose S256x128 [1, 0] (shapeCast S128x256 x10 shapeCasts_S128x256_S128x256) transposes_S128x256_p1_0_S256x128) (constant S1000x128 .f32 0x00000000#32)))
    (broadcast S1000x128 (Scalar.ofBits .f32 0x00000000#32))

/-- The last projection of a block of rows. -/
def projBlk (h : FVec Ideal S1000x128 .f32) (x11 : FVec Ideal S128x128 .bf16) : FVec Ideal S1000x128 .f32 :=
  (FloatOps.matmul dot_S1000x128_S128x128_S1000x128_1_0_0_1_n_n none (truncf .bf16 h bitsLt_bf16_f32) (transpose S128x128 [1, 0] (shapeCast S128x128 x11 shapeCasts_S128x128_S128x128) transposes_S128x128_p1_0_S128x128) (constant S1000x128 .f32 0x00000000#32))

/-- What the body stores is these four stages composed. -/
theorem pay_stages (x0 x1 : FVec Ideal S1000x512 .f32) (x2 x3 : FVec Ideal S512x512 .bf16) (x4 : FVec Ideal S1x512 .f32)
    (x5 : FVec Ideal S256x512 .bf16) (x6 : FVec Ideal S1x256 .f32) (x7 : FVec Ideal S256x512 .bf16)
    (x8 : FVec Ideal S128x256 .bf16) (x9 : FVec Ideal S1x128 .f32) (x10 : FVec Ideal S128x256 .bf16)
    (x11 : FVec Ideal S128x128 .bf16) :
    k0_pay1 (k0_pay2 x0 x1 x2 x3 x4 x5 x6 x7) (k0_pay3 (F := Ideal)) x8 x9 x10 x11
      = projBlk (hid2 (hid1 (hid0 x0 x1 x2 x3 x4) x5 x6 x7) x8 x9 x10) x11 := rfl

theorem hid0_apply (x0 x1 : FVec Ideal S1000x512 .f32) (x2 x3 : FVec Ideal S512x512 .bf16) (x4 : FVec Ideal S1x512 .f32)
    (p : Fin 1000) (c : Fin 512) :
    hid0 x0 x1 x2 x3 x4 (ix2 p c)
      = first (fun k => x0 (ix2 p k)) (fun k => x1 (ix2 p k)) x2 x3 (fun q => x4 (ix2 (0 : Fin 1) q)) c := by
  unfold hid0 first relu zero
  rw [maximumf_apply, addf_apply, addf_apply, mm_D0, mm_D0, broadcastTo_1b_ab_apply, shapeCast_self]
  rfl

theorem hid1_apply (h : FVec Ideal S1000x512 .f32) (x5 : FVec Ideal S256x512 .bf16) (x6 : FVec Ideal S1x256 .f32)
    (x7 : FVec Ideal S256x512 .bf16) (p : Fin 1000) (c : Fin 256) :
    hid1 h x5 x6 x7 (ix2 p c) = block x5 x7 (fun q => x6 (ix2 (0 : Fin 1) q)) (fun k => h (ix2 p k)) c := by
  unfold hid1 block relu zero
  rw [maximumf_apply, addf_apply, maximumf_apply, addf_apply, mm_D1, mm_D1, broadcastTo_1b_ab_apply, shapeCast_self]
  rfl

theorem hid2_apply (h : FVec Ideal S1000x256 .f32) (x8 : FVec Ideal S128x256 .bf16) (x9 : FVec Ideal S1x128 .f32)
    (x10 : FVec Ideal S128x256 .bf16) (p : Fin 1000) (c : Fin 128) :
    hid2 h x8 x9 x10 (ix2 p c) = block x8 x10 (fun q => x9 (ix2 (0 : Fin 1) q)) (fun k => h (ix2 p k)) c := by
  unfold hid2 block relu zero
  rw [maximumf_apply, addf_apply, maximumf_apply, addf_apply, mm_D2, mm_D2, broadcastTo_1b_ab_apply, shapeCast_self]
  rfl

theorem projBlk_apply (h : FVec Ideal S1000x128 .f32) (x11 : FVec Ideal S128x128 .bf16) (p : Fin 1000) (c : Fin 128) :
    projBlk h x11 (ix2 p c) = lin x11 (fun k => h (ix2 p k)) c := by
  unfold projBlk
  rw [mm_D3]
  rfl

/-- Entry (p, c) of what the body stores: the projected row of the block's node p, at c, from the node's rows of the
    two feature blocks, the weight blocks, and row 0 of each one-row bias block. -/
theorem head_pay (x0 x1 : FVec Ideal S1000x512 .f32) (x2 x3 : FVec Ideal S512x512 .bf16) (x4 : FVec Ideal S1x512 .f32)
    (x5 : FVec Ideal S256x512 .bf16) (x6 : FVec Ideal S1x256 .f32) (x7 : FVec Ideal S256x512 .bf16)
    (x8 : FVec Ideal S128x256 .bf16) (x9 : FVec Ideal S1x128 .f32) (x10 : FVec Ideal S128x256 .bf16)
    (x11 : FVec Ideal S128x128 .bf16) (p : Fin 1000) (c : Fin 128) :
    k0_pay1 (k0_pay2 x0 x1 x2 x3 x4 x5 x6 x7) (k0_pay3 (F := Ideal)) x8 x9 x10 x11 (ix2 p c)
      = projRow (fun k => x0 (ix2 p k)) (fun k => x1 (ix2 p k)) x2 x3 (fun q => x4 (ix2 (0 : Fin 1) q))
          x5 x7 (fun q => x6 (ix2 (0 : Fin 1) q)) x8 x10 (fun q => x9 (ix2 (0 : Fin 1) q)) x11 c := by
  rw [pay_stages, projBlk_apply]
  unfold projRow
  simp only [hid2_apply, hid1_apply, hid0_apply]

end Cert.LinkKernel

end
-- ==== Proof.Head.lean ====
/-
  The first grid of kernel points: from blocks to the whole array.

  The grid has fifty points; point t reads rows 1000 t … 1000 t + 999 of the two feature arrays, every weight matrix
  whole and every bias row whole, and writes back rows 1000 t … 1000 t + 999 of the projected features. The fifty row
  ranges tile the 50000 rows, and what each point writes is the restriction to its rows of one function of the arrays
  as the grid finds them, so after the last write-back the projected features are that function.
-/
import proofs.«122741_j77481210020193_1_alg».proof.Proof.Gen.KernelIdeal.Frame
import proofs.«122741_j77481210020193_1_alg».proof.Proof.PayHead
import Idealize.ShloMosaic.Lib.Pipeline.Value

set_option maxRecDepth 16384

noncomputable section

open scoped BigOperators

namespace Cert.LinkKernel

open Cert.KernelIdeal Cert.KernelIdeal.Gen Cert.LinkSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem headZero : (![0, 0] : Fin 2 → Nat) = fun _ => 0 := funext fun a => by fin_cases a <;> rfl

/-! Where each window's block sits at point t: the feature rows and the projected rows move with t, the rest stay. -/
theorem headIdx0 : ∀ t : Fin cfg0.N, win0_0.index t (0 : Fin 2) = t.val ∧ win0_0.index t (1 : Fin 2) = 0 :=
  (by decide +kernel : ∀ t : Fin grid0.N, _)
theorem headIdx1 : ∀ t : Fin cfg0.N, win0_1.index t (0 : Fin 2) = t.val ∧ win0_1.index t (1 : Fin 2) = 0 :=
  (by decide +kernel : ∀ t : Fin grid0.N, _)
theorem headIdx12 : ∀ t : Fin cfg0.N, win0_12.index t (0 : Fin 2) = t.val ∧ win0_12.index t (1 : Fin 2) = 0 :=
  (by decide +kernel : ∀ t : Fin grid0.N, _)
theorem headIdx2 : ∀ t : Fin cfg0.N, win0_2.index t (0 : Fin 2) = 0 ∧ win0_2.index t (1 : Fin 2) = 0 :=
  (by decide +kernel : ∀ t : Fin grid0.N, _)
theorem headIdx3 : ∀ t : Fin cfg0.N, win0_3.index t (0 : Fin 2) = 0 ∧ win0_3.index t (1 : Fin 2) = 0 :=
  (by decide +kernel : ∀ t : Fin grid0.N, _)
theorem headIdx4 : ∀ t : Fin cfg0.N, win0_4.index t (0 : Fin 2) = 0 ∧ win0_4.index t (1 : Fin 2) = 0 :=
  (by decide +kernel : ∀ t : Fin grid0.N, _)
theorem headIdx5 : ∀ t : Fin cfg0.N, win0_5.index t (0 : Fin 2) = 0 ∧ win0_5.index t (1 : Fin 2) = 0 :=
  (by decide +kernel : ∀ t : Fin grid0.N, _)
theorem headIdx6 : ∀ t : Fin cfg0.N, win0_6.index t (0 : Fin 2) = 0 ∧ win0_6.index t (1 : Fin 2) = 0 :=
  (by decide +kernel : ∀ t : Fin grid0.N, _)
theorem headIdx7 : ∀ t : Fin cfg0.N, win0_7.index t (0 : Fin 2) = 0 ∧ win0_7.index t (1 : Fin 2) = 0 :=
  (by decide +kernel : ∀ t : Fin grid0.N, _)
theorem headIdx8 : ∀ t : Fin cfg0.N, win0_8.index t (0 : Fin 2) = 0 ∧ win0_8.index t (1 : Fin 2) = 0 :=
  (by decide +kernel : ∀ t : Fin grid0.N, _)
theorem headIdx9 : ∀ t : Fin cfg0.N, win0_9.index t (0 : Fin 2) = 0 ∧ win0_9.index t (1 : Fin 2) = 0 :=
  (by decide +kernel : ∀ t : Fin grid0.N, _)
theorem headIdx10 : ∀ t : Fin cfg0.N, win0_10.index t (0 : Fin 2) = 0 ∧ win0_10.index t (1 : Fin 2) = 0 :=
  (by decide +kernel : ∀ t : Fin grid0.N, _)
theorem headIdx11 : ∀ t : Fin cfg0.N, win0_11.index t (0 : Fin 2) = 0 ∧ win0_11.index t (1 : Fin 2) = 0 :=
  (by decide +kernel : ∀ t : Fin grid0.N, _)

/-! The arrays as the grid finds them. -/
abbrev xiOf (c : Dev nD) : Mat 50000 512 := V c main_arg1
abbrev xjOf (c : Dev nD) : Mat 50000 512 := V c main_arg2
abbrev wiOf (c : Dev nD) : Mat 512 512 := V c main_v1
abbrev wjOf (c : Dev nD) : Mat 512 512 := V c main_v3
abbrev bcOf (c : Dev nD) : Mat 1 512 := V c main_v9
abbrev w1Of (c : Dev nD) : Mat 256 512 := V c main_v4
abbrev b1Of (c : Dev nD) : Mat 1 256 := V c main_v10
abbrev a1Of (c : Dev nD) : Mat 256 512 := V c main_v5
abbrev w2Of (c : Dev nD) : Mat 128 256 := V c main_v6
abbrev b2Of (c : Dev nD) : Mat 1 128 := V c main_v11
abbrev a2Of (c : Dev nD) : Mat 128 256 := V c main_v7
abbrev wgOf (c : Dev nD) : Mat 128 128 := V c main_v8

/-- The projected features as one function of the arrays the grid finds. -/
def projOf (c : Dev nD) : Mat 50000 128 := fun i =>
  projRow (fun k => xiOf V c (ix2 (i 0) k)) (fun k => xjOf V c (ix2 (i 0) k)) (wiOf V c) (wjOf V c)
    (fun q => bcOf V c (ix2 (0 : Fin 1) q)) (w1Of V c) (a1Of V c) (fun q => b1Of V c (ix2 (0 : Fin 1) q))
    (w2Of V c) (a2Of V c) (fun q => b2Of V c (ix2 (0 : Fin 1) q)) (wgOf V c) (i 1)

/-- Row p of point t's block of this feature array is row 1000 t + p of the array. -/
theorem headBlk0 (c : Dev nD) (t : Fin cfg0.N) (p : Fin 1000) (k : Fin 512) (n : Fin 50000)
    (hn : n.val = t.val * 1000 + p.val) :
    (iblk0 V c 0 t : S1000x512.Idx → EReal) (ix2 p k) = xiOf V c (ix2 n k) := by
  obtain ⟨e0, e1⟩ := headIdx0 t
  unfold iblk0
  rw [View.read_apply]
  show V c main_arg1 _ = V c main_arg1 _
  congr 1
  funext a
  apply Fin.ext
  match a with
  | ⟨0, _⟩ => show win0_0.index t (0 : Fin 2) * 1000 + 1 * p.val = n.val; rw [e0, hn]; omega
  | ⟨1, _⟩ => show win0_0.index t (1 : Fin 2) * 512 + 1 * k.val = k.val; rw [e1]; omega

/-- Row p of point t's block of this feature array is row 1000 t + p of the array. -/
theorem headBlk1 (c : Dev nD) (t : Fin cfg0.N) (p : Fin 1000) (k : Fin 512) (n : Fin 50000)
    (hn : n.val = t.val * 1000 + p.val) :
    (iblk0 V c 1 t : S1000x512.Idx → EReal) (ix2 p k) = xjOf V c (ix2 n k) := by
  obtain ⟨e0, e1⟩ := headIdx1 t
  unfold iblk0
  rw [View.read_apply]
  show V c main_arg2 _ = V c main_arg2 _
  congr 1
  funext a
  apply Fin.ext
  match a with
  | ⟨0, _⟩ => show win0_1.index t (0 : Fin 2) * 1000 + 1 * p.val = n.val; rw [e0, hn]; omega
  | ⟨1, _⟩ => show win0_1.index t (1 : Fin 2) * 512 + 1 * k.val = k.val; rw [e1]; omega

/-- This window's block at every point is its whole array. -/
theorem headBlk2 (c : Dev nD) (t : Fin cfg0.N) : (iblk0 V c 2 t : S512x512.Idx → EReal) = wiOf V c := by
  obtain ⟨e0, e1⟩ := headIdx2 t
  funext j
  obtain ⟨a, b, rfl⟩ : ∃ (a : Fin 512) (b : Fin 512), j = ix2 a b := ⟨j 0, j 1, eq_ix2 j⟩
  unfold iblk0
  rw [View.read_apply]
  show V c main_v1 _ = V c main_v1 _
  congr 1
  funext ax
  apply Fin.ext
  match ax with
  | ⟨0, _⟩ => show win0_2.index t (0 : Fin 2) * 512 + 1 * a.val = a.val; rw [e0]; omega
  | ⟨1, _⟩ => show win0_2.index t (1 : Fin 2) * 512 + 1 * b.val = b.val; rw [e1]; omega

/-- This window's block at every point is its whole array. -/
theorem headBlk3 (c : Dev nD) (t : Fin cfg0.N) : (iblk0 V c 3 t : S512x512.Idx → EReal) = wjOf V c := by
  obtain ⟨e0, e1⟩ := headIdx3 t
  funext j
  obtain ⟨a, b, rfl⟩ : ∃ (a : Fin 512) (b : Fin 512), j = ix2 a b := ⟨j 0, j 1, eq_ix2 j⟩
  unfold iblk0
  rw [View.read_apply]
  show V c main_v3 _ = V c main_v3 _
  congr 1
  funext ax
  apply Fin.ext
  match ax with
  | ⟨0, _⟩ => show win0_3.index t (0 : Fin 2) * 512 + 1 * a.val = a.val; rw [e0]; omega
  | ⟨1, _⟩ => show win0_3.index t (1 : Fin 2) * 512 + 1 * b.val = b.val; rw [e1]; omega

/-- This one-row window's block at every point is its array's one row. -/
theorem headBlk4 (c : Dev nD) (t : Fin cfg0.N) (k : Fin 512) :
    (iblk0 V c 4 t : S1x512.Idx → EReal) (ix2 (0 : Fin 1) k) = bcOf V c (ix2 (0 : Fin 1) k) := by
  obtain ⟨e0, e1⟩ := headIdx4 t
  unfold iblk0
  rw [View.read_apply]
  show V c main_v9 _ = V c main_v9 _
  congr 1
  funext a
  apply Fin.ext
  match a with
  | ⟨0, _⟩ => show win0_4.index t (0 : Fin 2) * 1 + 1 * 0 = 0; rw [e0]
  | ⟨1, _⟩ => show win0_4.index t (1 : Fin 2) * 512 + 1 * k.val = k.val; rw [e1]; omega

/-- This window's block at every point is its whole array. -/
theorem headBlk5 (c : Dev nD) (t : Fin cfg0.N) : (iblk0 V c 5 t : S256x512.Idx → EReal) = w1Of V c := by
  obtain ⟨e0, e1⟩ := headIdx5 t
  funext j
  obtain ⟨a, b, rfl⟩ : ∃ (a : Fin 256) (b : Fin 512), j = ix2 a b := ⟨j 0, j 1, eq_ix2 j⟩
  unfold iblk0
  rw [View.read_apply]
  show V c main_v4 _ = V c main_v4 _
  congr 1
  funext ax
  apply Fin.ext
  match ax with
  | ⟨0, _⟩ => show win0_5.index t (0 : Fin 2) * 256 + 1 * a.val = a.val; rw [e0]; omega
  | ⟨1, _⟩ => show win0_5.index t (1 : Fin 2) * 512 + 1 * b.val = b.val; rw [e1]; omega

/-- This one-row window's block at every point is its array's one row. -/
theorem headBlk6 (c : Dev nD) (t : Fin cfg0.N) (k : Fin 256) :
    (iblk0 V c 6 t : S1x256.Idx → EReal) (ix2 (0 : Fin 1) k) = b1Of V c (ix2 (0 : Fin 1) k) := by
  obtain ⟨e0, e1⟩ := headIdx6 t
  unfold iblk0
  rw [View.read_apply]
  show V c main_v10 _ = V c main_v10 _
  congr 1
  funext a
  apply Fin.ext
  match a with
  | ⟨0, _⟩ => show win0_6.index t (0 : Fin 2) * 1 + 1 * 0 = 0; rw [e0]
  | ⟨1, _⟩ => show win0_6.index t (1 : Fin 2) * 256 + 1 * k.val = k.val; rw [e1]; omega

/-- This window's block at every point is its whole array. -/
theorem headBlk7 (c : Dev nD) (t : Fin cfg0.N) : (iblk0 V c 7 t : S256x512.Idx → EReal) = a1Of V c := by
  obtain ⟨e0, e1⟩ := headIdx7 t
  funext j
  obtain ⟨a, b, rfl⟩ : ∃ (a : Fin 256) (b : Fin 512), j = ix2 a b := ⟨j 0, j 1, eq_ix2 j⟩
  unfold iblk0
  rw [View.read_apply]
  show V c main_v5 _ = V c main_v5 _
  congr 1
  funext ax
  apply Fin.ext
  match ax with
  | ⟨0, _⟩ => show win0_7.index t (0 : Fin 2) * 256 + 1 * a.val = a.val; rw [e0]; omega
  | ⟨1, _⟩ => show win0_7.index t (1 : Fin 2) * 512 + 1 * b.val = b.val; rw [e1]; omega

/-- This window's block at every point is its whole array. -/
theorem headBlk8 (c : Dev nD) (t : Fin cfg0.N) : (iblk0 V c 8 t : S128x256.Idx → EReal) = w2Of V c := by
  obtain ⟨e0, e1⟩ := headIdx8 t
  funext j
  obtain ⟨a, b, rfl⟩ : ∃ (a : Fin 128) (b : Fin 256), j = ix2 a b := ⟨j 0, j 1, eq_ix2 j⟩
  unfold iblk0
  rw [View.read_apply]
  show V c main_v6 _ = V c main_v6 _
  congr 1
  funext ax
  apply Fin.ext
  match ax with
  | ⟨0, _⟩ => show win0_8.index t (0 : Fin 2) * 128 + 1 * a.val = a.val; rw [e0]; omega
  | ⟨1, _⟩ => show win0_8.index t (1 : Fin 2) * 256 + 1 * b.val = b.val; rw [e1]; omega

/-- This one-row window's block at every point is its array's one row. -/
theorem headBlk9 (c : Dev nD) (t : Fin cfg0.N) (k : Fin 128) :
    (iblk0 V c 9 t : S1x128.Idx → EReal) (ix2 (0 : Fin 1) k) = b2Of V c (ix2 (0 : Fin 1) k) := by
  obtain ⟨e0, e1⟩ := headIdx9 t
  unfold iblk0
  rw [View.read_apply]
  show V c main_v11 _ = V c main_v11 _
  congr 1
  funext a
  apply Fin.ext
  match a with
  | ⟨0, _⟩ => show win0_9.index t (0 : Fin 2) * 1 + 1 * 0 = 0; rw [e0]
  | ⟨1, _⟩ => show win0_9.index t (1 : Fin 2) * 128 + 1 * k.val = k.val; rw [e1]; omega

/-- This window's block at every point is its whole array. -/
theorem headBlk10 (c : Dev nD) (t : Fin cfg0.N) : (iblk0 V c 10 t : S128x256.Idx → EReal) = a2Of V c := by
  obtain ⟨e0, e1⟩ := headIdx10 t
  funext j
  obtain ⟨a, b, rfl⟩ : ∃ (a : Fin 128) (b : Fin 256), j = ix2 a b := ⟨j 0, j 1, eq_ix2 j⟩
  unfold iblk0
  rw [View.read_apply]
  show V c main_v7 _ = V c main_v7 _
  congr 1
  funext ax
  apply Fin.ext
  match ax with
  | ⟨0, _⟩ => show win0_10.index t (0 : Fin 2) * 128 + 1 * a.val = a.val; rw [e0]; omega
  | ⟨1, _⟩ => show win0_10.index t (1 : Fin 2) * 256 + 1 * b.val = b.val; rw [e1]; omega

/-- This window's block at every point is its whole array. -/
theorem headBlk11 (c : Dev nD) (t : Fin cfg0.N) : (iblk0 V c 11 t : S128x128.Idx → EReal) = wgOf V c := by
  obtain ⟨e0, e1⟩ := headIdx11 t
  funext j
  obtain ⟨a, b, rfl⟩ : ∃ (a : Fin 128) (b : Fin 128), j = ix2 a b := ⟨j 0, j 1, eq_ix2 j⟩
  unfold iblk0
  rw [View.read_apply]
  show V c main_v8 _ = V c main_v8 _
  congr 1
  funext ax
  apply Fin.ext
  match ax with
  | ⟨0, _⟩ => show win0_11.index t (0 : Fin 2) * 128 + 1 * a.val = a.val; rw [e0]; omega
  | ⟨1, _⟩ => show win0_11.index t (1 : Fin 2) * 128 + 1 * b.val = b.val; rw [e1]; omega

/-- What point t writes back is its rows of the projected features. -/
theorem headFlushed (c : Dev nD) (t : Fin cfg0.N) :
    (dat0 V c).flushed 12 t = ((cfg0.win 12).blk t).view.read (Elt Ideal) (projOf V c) := by
  have ht : t.val < 50 := lt_of_lt_of_eq t.isLt (show cfg0.N = 50 from N_0)
  show (cfg0.win 12).cut (grid0.coords t) ((dat0 V c).after 12 t) = _
  rw [after0_12]
  unfold out0_12
  rw [View.canon_unit_zero headZero]
  simp only [View.ld_unit_zero (S := S1000x512) headZero,
    View.ld_unit_zero (S := S512x512) headZero,
    View.ld_unit_zero (S := S1x512) headZero,
    View.ld_unit_zero (S := S256x512) headZero,
    View.ld_unit_zero (S := S1x256) headZero,
    View.ld_unit_zero (S := S128x256) headZero,
    View.ld_unit_zero (S := S1x128) headZero,
    View.ld_unit_zero (S := S128x128) headZero]
  obtain ⟨e0, e1⟩ := headIdx12 t
  funext j
  obtain ⟨p, q, rfl⟩ : ∃ (p : Fin 1000) (q : Fin 128), j = ix2 p q := ⟨j 0, j 1, eq_ix2 j⟩
  have hn : t.val * 1000 + p.val < 50000 := by have := p.isLt; omega
  refine (head_pay (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) p q).trans ?_
  rw [View.read_apply]
  have hemb : ((cfg0.win 12).blk t).view.emb (ix2 p q) = ix2 (⟨t.val * 1000 + p.val, hn⟩ : Fin 50000) q := by
    funext a; apply Fin.ext
    match a with
    | ⟨0, _⟩ => show win0_12.index t (0 : Fin 2) * 1000 + 1 * p.val = t.val * 1000 + p.val; rw [e0]; omega
    | ⟨1, _⟩ => show win0_12.index t (1 : Fin 2) * 128 + 1 * q.val = q.val; rw [e1]; omega
  rw [hemb]
  show _ = projRow (fun k => xiOf V c (ix2 (⟨t.val * 1000 + p.val, hn⟩ : Fin 50000) k)) _ _ _ _ _ _ _ _ _ _ _ q
  congr 1
  · funext k; exact headBlk0 V c t p k _ rfl
  · funext k; exact headBlk1 V c t p k _ rfl
  · exact headBlk2 V c t
  · exact headBlk3 V c t
  · funext k; exact headBlk4 V c t k
  · exact headBlk5 V c t
  · exact headBlk7 V c t
  · funext k; exact headBlk6 V c t k
  · exact headBlk8 V c t
  · exact headBlk10 V c t
  · funext k; exact headBlk9 V c t k
  · exact headBlk11 V c t

/-- Membership in point t's block of the projected features, coordinate by coordinate. -/
theorem headMem (t : Fin cfg0.N) (i : S50000x128.Idx) :
    i ∈ ((cfg0.win 12).blk t).view.set ↔ ∀ a : Fin 2, win0_12.index t a * S1000x128.size a ≤ (i a).val
      ∧ (i a).val < win0_12.index t a * S1000x128.size a + S1000x128.size a := by
  show i ∈ ((View.whole main_v12).slice (win0_12.rect t)).set ↔ _
  rw [View.set_slice_whole, Rect.mem_set_unit]
  exact Iff.rfl

/-- Every row of the projected features is in the block of the point its number divided by 1000 names. -/
theorem headCover (i : S50000x128.Idx) :
    ∃ t : Fin cfg0.N, (cfg0.win 12).flush t = true ∧ i ∈ ((cfg0.win 12).blk t).view.set := by
  have h0 : (i 0).val < 50000 := idx2_lt0 i
  have h1 : (i 1).val < 128 := idx2_lt1 i
  obtain ⟨t, ht⟩ : ∃ t : Fin cfg0.N, t.val = (i 0).val / 1000 :=
    ⟨⟨(i 0).val / 1000, by rw [show cfg0.N = 50 from N_0]; omega⟩, rfl⟩
  obtain ⟨e0, e1⟩ := headIdx12 t
  refine ⟨t, flush0_12 t, ?_⟩
  rw [headMem]
  intro a
  match a with
  | ⟨0, _⟩ =>
    show win0_12.index t (0 : Fin 2) * 1000 ≤ (i 0).val ∧ (i 0).val < win0_12.index t (0 : Fin 2) * 1000 + 1000
    rw [e0, ht]; omega
  | ⟨1, _⟩ =>
    show win0_12.index t (1 : Fin 2) * 128 ≤ (i 1).val ∧ (i 1).val < win0_12.index t (1 : Fin 2) * 128 + 128
    rw [e1]; omega

/-- After the last write-back the projected features are `projOf` of the arrays the grid found. -/
theorem headFinal (c : Dev nD) : (dat0 V c).arrAt 12 cfg0.N = projOf V c :=
  (dat0 V c).arrAt_eq_of_cover 12 (projOf V c) (fun t _ => headFlushed V c t) headCover

end Cert.LinkKernel

end
-- ==== Proof.PayTail.lean ====
/-
  The second kernel body at one entry of its output block.

  For a block of 5000 nodes the body adds the bias row to the aggregated rows, applies relu, takes the dot product
  of each row with the one row of the last weight matrix (a product with the transposed [1, 128] block into a zero
  accumulator), adds the one-entry bias and applies the logistic function twice. Entry (p, 0) of what it stores is
  the specification's score of the block's node p.
-/
import proofs.«122741_j77481210020193_1_alg».proof.Proof.Gen.KernelIdeal.Skeleton
import proofs.«122741_j77481210020193_1_alg».proof.Proof.KernelMatmul

noncomputable section

open scoped BigOperators

namespace Cert.LinkKernel

open Idealize.ShloMosaic Idealize.ShloMosaic.ValueIdx Cert.KernelIdeal Cert.KernelIdeal.Gen Cert.LinkSpec

/-- relu (agg + b_gcn) on a block of rows. -/
def act (v0 : FVec Ideal S5000x128 .f32) (v2 : FVec Ideal S1x128 .f32) : FVec Ideal S5000x128 .f32 :=
  maximumf (addf (shapeCast S5000x128 v0 shapeCasts_S5000x128_S5000x128) (broadcastTo S5000x128 (shapeCast S1x128 v2 shapeCasts_S1x128_S1x128) broadcasts_S1x128_S5000x128))
    (broadcast S5000x128 (Scalar.ofBits .f32 0x00000000#32))

/-- The logits of a block of rows. -/
def logits (h : FVec Ideal S5000x128 .f32) (v9 : FVec Ideal S1x128 .bf16) (v13 : FVec Ideal S1x1 .f32) :
    FVec Ideal S5000x1 .f32 :=
  addf (FloatOps.matmul dot_S5000x128_S128x1_S5000x1_1_0_0_1_n_n none (truncf .bf16 h bitsLt_bf16_f32) (transpose S128x1 [1, 0] (shapeCast S1x128 v9 shapeCasts_S1x128_S1x128) transposes_S1x128_p1_0_S128x1) (constant S5000x1 .f32 0x00000000#32)) (broadcastTo S5000x1 (shapeCast S1x1 v13 shapeCasts_S1x1_S1x1) broadcasts_S1x1_S5000x1)

theorem tail_stages (v0 : FVec Ideal S5000x128 .f32) (v2 : FVec Ideal S1x128 .f32) (v9 : FVec Ideal S1x128 .bf16)
    (v13 : FVec Ideal S1x1 .f32) :
    k1_pay1 (F := Ideal) v0 v2 v9 v13 = logistic (logistic (logits (act v0 v2) v9 v13)) := rfl

theorem act_apply (v0 : FVec Ideal S5000x128 .f32) (v2 : FVec Ideal S1x128 .f32) (p : Fin 5000) (k : Fin 128) :
    act v0 v2 (ix2 p k) = relu (v0 (ix2 p k) + v2 (ix2 (0 : Fin 1) k)) := by
  unfold act relu zero
  rw [maximumf_apply, addf_apply, shapeCast_self, broadcastTo_1b_ab_apply, shapeCast_self]
  rfl

theorem logits_apply (h : FVec Ideal S5000x128 .f32) (v9 : FVec Ideal S1x128 .bf16) (v13 : FVec Ideal S1x1 .f32)
    (p : Fin 5000) :
    logits h v9 v13 (ix2 p (0 : Fin 1))
      = (∑ k : Fin 128, h (ix2 p k) * v9 (ix2 (0 : Fin 1) k)) + v13 (ix2 (0 : Fin 1) (0 : Fin 1)) := by
  unfold logits
  rw [addf_apply, mm_D4, broadcastTo_1b_ab_apply, shapeCast_self]
  rfl

/-- Entry (p, 0) of what the body stores: the score of the block's node p from its aggregated row, row 0 of the bias
    block, row 0 of the weight block and the one entry of the last bias. -/
theorem tail_pay (v0 : FVec Ideal S5000x128 .f32) (v2 : FVec Ideal S1x128 .f32) (v9 : FVec Ideal S1x128 .bf16)
    (v13 : FVec Ideal S1x1 .f32) (p : Fin 5000) (u : Fin 1) :
    k1_pay1 (F := Ideal) v0 v2 v9 v13 (ix2 p u)
      = scoreRow (fun k => v0 (ix2 p k)) (fun k => v2 (ix2 (0 : Fin 1) k)) (fun k => v9 (ix2 (0 : Fin 1) k))
          (v13 (ix2 (0 : Fin 1) (0 : Fin 1))) := by
  obtain rfl : u = 0 := Subsingleton.elim _ _
  rw [tail_stages]
  show Ideal.logistic (Ideal.logistic (logits (act v0 v2) v9 v13 (ix2 p (0 : Fin 1)))) = _
  rw [logits_apply]
  unfold scoreRow
  simp only [act_apply]

end Cert.LinkKernel

end
-- ==== Proof.Tail.lean ====
/-
  The second grid of kernel points: from blocks to the whole array.

  The grid has ten points; point t reads rows 5000 t … 5000 t + 4999 of the aggregated features, the whole bias
  row, the whole weight row and the one-entry bias, and writes back rows 5000 t … 5000 t + 4999 of the score column.
  The ten row ranges tile the 50000 rows, and what each point writes is the restriction to its rows of one function
  of the arrays as the grid finds them, so after the last write-back the score column is that function.
-/
import proofs.«122741_j77481210020193_1_alg».proof.Proof.Gen.KernelIdeal.Frame
import proofs.«122741_j77481210020193_1_alg».proof.Proof.PayTail
import Idealize.ShloMosaic.Lib.Pipeline.Value

set_option maxRecDepth 16384

noncomputable section

open scoped BigOperators

namespace Cert.LinkKernel

open Cert.KernelIdeal Cert.KernelIdeal.Gen Cert.LinkSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- Where each window's block sits at point t: the aggregated rows and the score rows move with t, the rest stay. -/
theorem tailIdx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated features, the bias row, the weight row and the last bias as the grid finds them. -/
abbrev aggOf (c : Dev nD) : Mat 50000 128 := V c main_v56
abbrev bgOf (c : Dev nD) : Mat 1 128 := V c main_v57
abbrev wfOf (c : Dev nD) : Mat 1 128 := V c main_v58
abbrev bfOf (c : Dev nD) : Mat 1 1 := V c main_v59

/-- The score column as one function of the arrays the grid finds. -/
def scoreOf (c : Dev nD) : Mat 50000 1 := fun i =>
  scoreRow (fun k => aggOf V c (ix2 (i 0) k)) (fun k => bgOf V c (ix2 (0 : Fin 1) k))
    (fun k => wfOf V c (ix2 (0 : Fin 1) k)) (bfOf V c (ix2 (0 : Fin 1) (0 : Fin 1)))

/-- Row p of point t's block of aggregated features is row 5000 t + p of the array. -/
theorem tailBlk0 (c : Dev nD) (t : Fin cfg1.N) (p : Fin 5000) (k : Fin 128) (n : Fin 50000)
    (hn : n.val = t.val * 5000 + p.val) :
    (iblk1 V c 0 t : S5000x128.Idx → EReal) (ix2 p k) = aggOf V c (ix2 n k) := by
  obtain ⟨e0, e1, -⟩ := tailIdx t
  unfold iblk1
  rw [View.read_apply]
  show V c main_v56 _ = V c main_v56 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

theorem tailBlk1 (c : Dev nD) (t : Fin cfg1.N) (k : Fin 128) :
    (iblk1 V c 1 t : S1x128.Idx → EReal) (ix2 (0 : Fin 1) k) = bgOf V c (ix2 (0 : Fin 1) k) := by
  obtain ⟨-, -, e0, e1, -⟩ := tailIdx t
  unfold iblk1
  rw [View.read_apply]
  show V c main_v57 _ = V c main_v57 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * k.val = k.val; rw [e1]; omega

theorem tailBlk2 (c : Dev nD) (t : Fin cfg1.N) (k : Fin 128) :
    (iblk1 V c 2 t : S1x128.Idx → EReal) (ix2 (0 : Fin 1) k) = wfOf V c (ix2 (0 : Fin 1) k) := by
  obtain ⟨-, -, -, -, e0, e1, -⟩ := tailIdx t
  unfold iblk1
  rw [View.read_apply]
  show V c main_v58 _ = V c main_v58 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

theorem tailBlk3 (c : Dev nD) (t : Fin cfg1.N) :
    (iblk1 V c 3 t : S1x1.Idx → EReal) (ix2 (0 : Fin 1) (0 : Fin 1)) = bfOf V c (ix2 (0 : Fin 1) (0 : Fin 1)) := by
  obtain ⟨-, -, -, -, -, -, e0, e1, -⟩ := tailIdx t
  unfold iblk1
  rw [View.read_apply]
  show V c main_v59 _ = V c main_v59 _
  congr 1
  funext a
  apply Fin.ext
  match a with
  | ⟨0, _⟩ => show win1_3.index t (0 : Fin 2) * 1 + 1 * 0 = 0; rw [e0]
  | ⟨1, _⟩ => show win1_3.index t (1 : Fin 2) * 1 + 1 * 0 = 0; rw [e1]

/-- What point t writes back is its rows of the score column. -/
theorem tailFlushed (c : Dev nD) (t : Fin cfg1.N) :
    (dat1 V c).flushed 4 t = ((cfg1.win 4).blk t).view.read (Elt Ideal) (scoreOf V c) := by
  have ht : t.val < 10 := lt_of_lt_of_eq t.isLt (show cfg1.N = 10 from N_1)
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S1x128) zeroOffsets,
    View.ld_unit_zero (S := S1x1) zeroOffsets]
  obtain ⟨-, -, -, -, -, -, -, -, e40, e41⟩ := tailIdx t
  funext j
  obtain ⟨p, u, rfl⟩ : ∃ (p : Fin 5000) (u : Fin 1), j = ix2 p u := ⟨j 0, j 1, eq_ix2 j⟩
  have hn : t.val * 5000 + p.val < 50000 := by have := p.isLt; omega
  refine (tail_pay (iblk1 V c 0 t) (iblk1 V c 1 t) (iblk1 V c 2 t) (iblk1 V c 3 t) p u).trans ?_
  rw [View.read_apply]
  have hemb : ((cfg1.win 4).blk t).view.emb (ix2 p u) = ix2 (⟨t.val * 5000 + p.val, hn⟩ : Fin 50000) u := by
    funext a; apply Fin.ext
    match a with
    | ⟨0, _⟩ => show win1_4.index t (0 : Fin 2) * 5000 + 1 * p.val = t.val * 5000 + p.val; rw [e40]; omega
    | ⟨1, _⟩ => show win1_4.index t (1 : Fin 2) * 1 + 1 * u.val = u.val; rw [e41]; omega
  rw [hemb]
  show _ = scoreRow (fun k => aggOf V c (ix2 (⟨t.val * 5000 + p.val, hn⟩ : Fin 50000) k)) _ _ _
  congr 1
  · funext k; exact tailBlk0 V c t p k _ rfl
  · funext k; exact tailBlk1 V c t k
  · funext k; exact tailBlk2 V c t k
  · exact tailBlk3 V c t

/-- Membership in point t's block of the score column, coordinate by coordinate. -/
theorem tailMem (t : Fin cfg1.N) (i : S50000x1.Idx) :
    i ∈ ((cfg1.win 4).blk t).view.set ↔ ∀ a : Fin 2, win1_4.index t a * S5000x1.size a ≤ (i a).val
      ∧ (i a).val < win1_4.index t a * S5000x1.size a + S5000x1.size a := by
  show i ∈ ((View.whole main_v60).slice (win1_4.rect t)).set ↔ _
  rw [View.set_slice_whole, Rect.mem_set_unit]
  exact Iff.rfl

/-- Every row of the score column is in the block of the point its number divided by 5000 names. -/
theorem tailCover (i : S50000x1.Idx) :
    ∃ t : Fin cfg1.N, (cfg1.win 4).flush t = true ∧ i ∈ ((cfg1.win 4).blk t).view.set := by
  have h0 : (i 0).val < 50000 := idx2_lt0 i
  have h1 : (i 1).val < 1 := idx2_lt1 i
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e40, e41⟩ := tailIdx t
  refine ⟨t, flush1_4 t, ?_⟩
  rw [tailMem]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 1 ≤ (i 1).val ∧ (i 1).val < win1_4.index t (1 : Fin 2) * 1 + 1
    rw [e41]; omega

/-- After the last write-back the score column is `scoreOf` of the arrays the grid found. -/
theorem tailFinal (c : Dev nD) : (dat1 V c).arrAt 4 cfg1.N = scoreOf V c :=
  (dat1 V c).arrAt_eq_of_cover 4 (scoreOf V c) (fun t _ => tailFlushed V c t) tailCover

end Cert.LinkKernel

end
-- ==== Proof.Mid.lean ====
/-
  The graph convolution's aggregation as ONE function of the projected features and the edge list.

  Both programs apply the same sequence of operations between the projected features and the aggregated rows:
  split the edge list into sources and targets, count each node's incoming edges (plus one for the self-loop),
  take the reciprocal square root, gather it at both ends of every edge, gather the sources' projected rows,
  scale, sum at the targets, and add the self-loop term. Nothing in the proof needs to know what these operations
  compute: the two programs agree as soon as they feed the same projected features and the same edge list into this
  one function. It is written twice, once over each program's own names for the dimension records, and the two
  spellings are the same function.
-/
import proofs.«122741_j77481210020193_1_alg».proof.Proof.Gen.KernelIdeal
import proofs.«122741_j77481210020193_1_alg».proof.Proof.Gen.ReferenceIdeal
import Idealize.ShloMosaic.PureOps.Ideal

noncomputable section

namespace Cert.LinkMid

open Idealize.ShloMosaic Idealize.ShloMosaic.TcCoe Idealize.SL.Sem

section R

open Cert.ReferenceIdeal Cert.ReferenceIdeal.Gen

/-- Source node of every edge: row 0 of the edge list. -/
def rowR (ei : IVec S2x1600000 32) : IVec S1600000 32 :=
  shapeCast _ (extractStridedSlice S1x1600000 ![0, 0] ei slices_S2x1600000_S1x1600000_0_0) shapeCasts_S1x1600000_S1600000

/-- Target node of every edge: row 1 of the edge list. -/
def colR (ei : IVec S2x1600000 32) : IVec S1600000 32 :=
  shapeCast _ (extractStridedSlice S1x1600000 ![1, 0] ei slices_S2x1600000_S1x1600000_1_0) shapeCasts_S1x1600000_S1600000

/-- A negative node number counts from the end: v < 0 becomes v + 50000. -/
def wrapR (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

/-- deg^(-1/2) per node, the degree counting each incoming edge once and the self-loop once. -/
def dinvR (ei : IVec S2x1600000 32) : FVec Ideal S50000 .f32 :=
  Host.rsqrt (addf
    (Host.scatterAdd scatter_S50000_S1600000x1_S1600000_n_0_0_1
      (broadcastInDim S50000 ![] bcast_S_S50000 (constant (F := Ideal) S_ .f32 0x00000000#32))
      (broadcastInDim S1600000x1 ![0] bcast_S1600000_S1600000x1_0 (colR ei))
      (broadcastInDim S1600000 ![] bcast_S_S1600000 (constant (F := Ideal) S_ .f32 0x3F800000#32)))
    (broadcastInDim S50000 ![] bcast_S_S50000 (constant (F := Ideal) S_ .f32 0x3F800000#32)))

/-- The symmetric normalisation of every edge: dinv at its source times dinv at its target. -/
def normR (ei : IVec S2x1600000 32) : FVec Ideal S1600000 .f32 :=
  mulf
    (Host.gather gather_S50000_S1600000x1_S1600000_n_0_n_n_0_1_1 (dinvR ei)
      (broadcastInDim S1600000x1 ![0] bcast_S1600000_S1600000x1_0 (wrapR (rowR ei))))
    (Host.gather gather_S50000_S1600000x1_S1600000_n_0_n_n_0_1_1 (dinvR ei)
      (broadcastInDim S1600000x1 ![0] bcast_S1600000_S1600000x1_0 (wrapR (colR ei))))

/-- The graph convolution's aggregation: every edge carries its source's projected row, scaled by the edge's
    normalisation, to its target, where the rows are summed; the self-loop adds dinv² times the node's own row. -/
def midR (xw : FVec Ideal S50000x128 .f32) (ei : IVec S2x1600000 32) :
    FVec Ideal S50000x128 .f32 :=
  addf
    (Host.scatterAdd scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 (colR ei))
      (mulf
        (Host.gather gather_S50000x128_S1600000x1_S1600000x128_1_0_n_n_0_1_1128 xw
          (broadcastInDim S1600000x1 ![0] bcast_S1600000_S1600000x1_0 (wrapR (rowR ei))))
        (broadcastInDim S1600000x128 ![0, 1] bcast_S1600000x1_S1600000x128_0_1
          (broadcastInDim S1600000x1 ![0] bcast_S1600000_S1600000x1_0 (normR ei)))))
    (mulf
      (broadcastInDim S50000x128 ![0, 1] bcast_S50000x1_S50000x128_0_1
        (broadcastInDim S50000x1 ![0] bcast_S50000_S50000x1_0 (mulf (dinvR ei) (dinvR ei))))
      xw)

end R

section K

open Cert.KernelIdeal Cert.KernelIdeal.Gen

/-- Source node of every edge: row 0 of the edge list. -/
def rowK (ei : IVec S2x1600000 32) : IVec S1600000 32 :=
  shapeCast _ (extractStridedSlice S1x1600000 ![0, 0] ei slices_S2x1600000_S1x1600000_0_0) shapeCasts_S1x1600000_S1600000

/-- Target node of every edge: row 1 of the edge list. -/
def colK (ei : IVec S2x1600000 32) : IVec S1600000 32 :=
  shapeCast _ (extractStridedSlice S1x1600000 ![1, 0] ei slices_S2x1600000_S1x1600000_1_0) shapeCasts_S1x1600000_S1600000

/-- A negative node number counts from the end: v < 0 becomes v + 50000. -/
def wrapK (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

/-- deg^(-1/2) per node, the degree counting each incoming edge once and the self-loop once. -/
def dinvK (ei : IVec S2x1600000 32) : FVec Ideal S50000 .f32 :=
  Host.rsqrt (addf
    (Host.scatterAdd scatter_S50000_S1600000x1_S1600000_n_0_0_1
      (broadcastInDim S50000 ![] bcast_S_S50000 (constant (F := Ideal) S_ .f32 0x00000000#32))
      (broadcastInDim S1600000x1 ![0] bcast_S1600000_S1600000x1_0 (colK ei))
      (broadcastInDim S1600000 ![] bcast_S_S1600000 (constant (F := Ideal) S_ .f32 0x3F800000#32)))
    (broadcastInDim S50000 ![] bcast_S_S50000 (constant (F := Ideal) S_ .f32 0x3F800000#32)))

/-- The symmetric normalisation of every edge: dinv at its source times dinv at its target. -/
def normK (ei : IVec S2x1600000 32) : FVec Ideal S1600000 .f32 :=
  mulf
    (Host.gather gather_S50000_S1600000x1_S1600000_n_0_n_n_0_1_1 (dinvK ei)
      (broadcastInDim S1600000x1 ![0] bcast_S1600000_S1600000x1_0 (wrapK (rowK ei))))
    (Host.gather gather_S50000_S1600000x1_S1600000_n_0_n_n_0_1_1 (dinvK ei)
      (broadcastInDim S1600000x1 ![0] bcast_S1600000_S1600000x1_0 (wrapK (colK ei))))

/-- The graph convolution's aggregation: every edge carries its source's projected row, scaled by the edge's
    normalisation, to its target, where the rows are summed; the self-loop adds dinv² times the node's own row. -/
def midK (xw : FVec Ideal S50000x128 .f32) (ei : IVec S2x1600000 32) :
    FVec Ideal S50000x128 .f32 :=
  addf
    (Host.scatterAdd scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 (colK ei))
      (mulf
        (Host.gather gather_S50000x128_S1600000x1_S1600000x128_1_0_n_n_0_1_1128 xw
          (broadcastInDim S1600000x1 ![0] bcast_S1600000_S1600000x1_0 (wrapK (rowK ei))))
        (broadcastInDim S1600000x128 ![0, 1] bcast_S1600000x1_S1600000x128_0_1
          (broadcastInDim S1600000x1 ![0] bcast_S1600000_S1600000x1_0 (normK ei)))))
    (mulf
      (broadcastInDim S50000x128 ![0, 1] bcast_S50000x1_S50000x128_0_1
        (broadcastInDim S50000x1 ![0] bcast_S50000_S50000x1_0 (mulf (dinvK ei) (dinvK ei))))
      xw)

end K

/-- The two spellings are one function. -/
theorem mid_eq (xw : FVec Ideal Cert.KernelIdeal.S50000x128 .f32)
    (ei : IVec Cert.KernelIdeal.S2x1600000 32) : midK xw ei = midR xw ei := rfl

end Cert.LinkMid

end
-- ==== Proof.Stretches.lean ====
/-
  What the host operations around the two grids contribute.

  Before the first grid the host cuts W_cat into its two column halves, changes the float format of every weight
  matrix (the identity on the extended reals) and reshapes each bias vector to one row; the first grid therefore finds
  exactly the arrays the specification's projected features are a function of. Between the grids the host applies the
  graph aggregation to the first grid's output and the edge list, and reshapes b_gcn and b_fc; the second grid
  therefore finds the aggregation of the projected features. Composed with the two grids' own results this gives the
  program's result array as the specification's score of the aggregated projected features.
-/
import proofs.«122741_j77481210020193_1_alg».proof.Proof.Gen.KernelIdeal.Frame
import proofs.«122741_j77481210020193_1_alg».proof.Proof.Head
import proofs.«122741_j77481210020193_1_alg».proof.Proof.Tail
import proofs.«122741_j77481210020193_1_alg».proof.Proof.Mid
import Idealize.ShloMosaic.Lib.StableHlo.Run
import Idealize.ShloMosaic.Lib.ValueLayout

set_option maxRecDepth 16384

noncomputable section

open scoped BigOperators

namespace Cert.LinkKernel

open Cert.KernelIdeal Cert.KernelIdeal.Gen Cert.LinkSpec Cert.LinkMid
open Idealize.ShloMosaic Idealize.ShloMosaic.TcCoe Idealize.SL.Sem Idealize.ShloMosaic.ValueIdx
open Idealize.ShloMosaic.StableHlo Idealize.ShloMosaic.Tactic

variable (m : (ℓ : Loc nD τ sig) → Buf (Elt Ideal) ℓ) (ρ : Dev nD → PrngReg)

/-! ## What the first grid finds -/

theorem pre_xi (c : Dev nD) : xiOf (V1 m ρ) c = (m ((c : Thread nD τ).loc main_arg1)) := by
  show StableHlo.after hostOps0 (W0 m ρ c) (Proc.devRef .tc main_arg1) = _
  after_results

theorem pre_xj (c : Dev nD) : xjOf (V1 m ρ) c = (m ((c : Thread nD τ).loc main_arg2)) := by
  show StableHlo.after hostOps0 (W0 m ρ c) (Proc.devRef .tc main_arg2) = _
  after_results

/-- The first weight block is the columns of W_cat that meet x_i. -/
theorem pre_wi (c : Dev nD) : wiOf (V1 m ρ) c = loHalf (m ((c : Thread nD τ).loc main_arg4)) := by
  show StableHlo.after hostOps0 (W0 m ρ c) (Proc.devRef .tc main_v1) = _
  after_results
  funext j
  obtain ⟨a, b, rfl⟩ : ∃ (a : Fin 512) (b : Fin 512), j = ix2 a b := ⟨j 0, j 1, eq_ix2 j⟩
  rw [loHalf_ix2]
  show extractStridedSlice S512x512 ![0, 0] ((m ((c : Thread nD τ).loc main_arg4)) : S512x1024.Idx → EReal)
    slices_S512x1024_S512x512_0_0 (ix2 a b) = _
  exact extractStridedSlice_apply ![0, 0] _ slices_S512x1024_S512x512_0_0 (ix2 a b) (ix2 a (lo b))
    (fun ax => match ax with
      | ⟨0, _⟩ => (Nat.zero_add _).symm
      | ⟨1, _⟩ => (Nat.zero_add _).symm)

/-- The second weight block is the columns of W_cat that meet x_j. -/
theorem pre_wj (c : Dev nD) : wjOf (V1 m ρ) c = hiHalf (m ((c : Thread nD τ).loc main_arg4)) := by
  show StableHlo.after hostOps0 (W0 m ρ c) (Proc.devRef .tc main_v3) = _
  after_results
  funext j
  obtain ⟨a, b, rfl⟩ : ∃ (a : Fin 512) (b : Fin 512), j = ix2 a b := ⟨j 0, j 1, eq_ix2 j⟩
  rw [hiHalf_ix2]
  show extractStridedSlice S512x512 ![0, 512] ((m ((c : Thread nD τ).loc main_arg4)) : S512x1024.Idx → EReal)
    slices_S512x1024_S512x512_0_512 (ix2 a b) = _
  exact extractStridedSlice_apply ![0, 512] _ slices_S512x1024_S512x512_0_512 (ix2 a b) (ix2 a (hi b))
    (fun ax => match ax with
      | ⟨0, _⟩ => (Nat.zero_add _).symm
      | ⟨1, _⟩ => rfl)

theorem pre_w1Of (c : Dev nD) : w1Of (V1 m ρ) c = (m ((c : Thread nD τ).loc main_arg6)) := by
  show StableHlo.after hostOps0 (W0 m ρ c) (Proc.devRef .tc main_v4) = _
  after_results
  rfl

theorem pre_a1Of (c : Dev nD) : a1Of (V1 m ρ) c = (m ((c : Thread nD τ).loc main_arg8)) := by
  show StableHlo.after hostOps0 (W0 m ρ c) (Proc.devRef .tc main_v5) = _
  after_results
  rfl

theorem pre_w2Of (c : Dev nD) : w2Of (V1 m ρ) c = (m ((c : Thread nD τ).loc main_arg9)) := by
  show StableHlo.after hostOps0 (W0 m ρ c) (Proc.devRef .tc main_v6) = _
  after_results
  rfl

theorem pre_a2Of (c : Dev nD) : a2Of (V1 m ρ) c = (m ((c : Thread nD τ).loc main_arg11)) := by
  show StableHlo.after hostOps0 (W0 m ρ c) (Proc.devRef .tc main_v7) = _
  after_results
  rfl

theorem pre_wgOf (c : Dev nD) : wgOf (V1 m ρ) c = (m ((c : Thread nD τ).loc main_arg12)) := by
  show StableHlo.after hostOps0 (W0 m ρ c) (Proc.devRef .tc main_v8) = _
  after_results
  rfl

theorem pre_bcOf (c : Dev nD) (q : Fin 512) : bcOf (V1 m ρ) c (ix2 (0 : Fin 1) q) = (m ((c : Thread nD τ).loc main_arg5)) (ix1 q) := by
  have e : bcOf (V1 m ρ) c = shapeCast S1x512 ((m ((c : Thread nD τ).loc main_arg5)) : S512.Idx → EReal) shapeCasts_S512_S1x512 := by
    show StableHlo.after hostOps0 (W0 m ρ c) (Proc.devRef .tc main_v9) = _
    after_results
    rfl
  rw [e]
  exact shapeCast_a_1a_apply _ _ (0 : Fin 1) q

theorem pre_b1Of (c : Dev nD) (q : Fin 256) : b1Of (V1 m ρ) c (ix2 (0 : Fin 1) q) = (m ((c : Thread nD τ).loc main_arg7)) (ix1 q) := by
  have e : b1Of (V1 m ρ) c = shapeCast S1x256 ((m ((c : Thread nD τ).loc main_arg7)) : S256.Idx → EReal) shapeCasts_S256_S1x256 := by
    show StableHlo.after hostOps0 (W0 m ρ c) (Proc.devRef .tc main_v10) = _
    after_results
    rfl
  rw [e]
  exact shapeCast_a_1a_apply _ _ (0 : Fin 1) q

theorem pre_b2Of (c : Dev nD) (q : Fin 128) : b2Of (V1 m ρ) c (ix2 (0 : Fin 1) q) = (m ((c : Thread nD τ).loc main_arg10)) (ix1 q) := by
  have e : b2Of (V1 m ρ) c = shapeCast S1x128 ((m ((c : Thread nD τ).loc main_arg10)) : S128.Idx → EReal) shapeCasts_S128_S1x128 := by
    show StableHlo.after hostOps0 (W0 m ρ c) (Proc.devRef .tc main_v11) = _
    after_results
    rfl
  rw [e]
  exact shapeCast_a_1a_apply _ _ (0 : Fin 1) q

/-- The first grid's function of the arrays it finds is the specification's projected features of the arguments. -/
theorem head_entry (c : Dev nD) :
    projOf (V1 m ρ) c = proj (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg11)) (m ((c : Thread nD τ).loc main_arg10)) (m ((c : Thread nD τ).loc main_arg12)) := by
  funext i
  obtain ⟨n, q, rfl⟩ : ∃ (n : Fin 50000) (q : Fin 128), i = ix2 n q := ⟨i 0, i 1, eq_ix2 i⟩
  rw [proj_ix2]
  show projRow (fun k => xiOf (V1 m ρ) c (ix2 n k)) (fun k => xjOf (V1 m ρ) c (ix2 n k)) (wiOf (V1 m ρ) c)
    (wjOf (V1 m ρ) c) (fun q => bcOf (V1 m ρ) c (ix2 (0 : Fin 1) q)) (w1Of (V1 m ρ) c) (a1Of (V1 m ρ) c)
    (fun q => b1Of (V1 m ρ) c (ix2 (0 : Fin 1) q)) (w2Of (V1 m ρ) c) (a2Of (V1 m ρ) c)
    (fun q => b2Of (V1 m ρ) c (ix2 (0 : Fin 1) q)) (wgOf (V1 m ρ) c) q = _
  unfold projAt
  congr 1
  · exact pre_wi m ρ c
  · exact pre_wj m ρ c
  · funext k; exact pre_bcOf m ρ c k
  · funext k; exact pre_b1Of m ρ c k
  · funext k; exact pre_b2Of m ρ c k

/-! ## What the first grid leaves, and what the second grid finds -/

/-- The projected features after the first grid. -/
theorem mid_xw (c : Dev nD) :
    W2 m ρ c (Proc.devRef .tc main_v12)
      = proj (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg11)) (m ((c : Thread nD τ).loc main_arg10)) (m ((c : Thread nD τ).loc main_arg12)) :=
  (W2_arr m ρ c 12).trans ((headFinal (V1 m ρ) c).trans (head_entry m ρ c))

theorem mid_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    after_results)

theorem mid_arg13 (c : Dev nD) : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results)

theorem mid_arg14 (c : Dev nD) : W2 m ρ c (Proc.devRef .tc main_arg14) = (m ((c : Thread nD τ).loc main_arg14)) :=
  (W2_of_ne m ρ c main_arg14 (by decide)).trans (by
    show StableHlo.after hostOps0 (W0 m ρ c) (Proc.devRef .tc main_arg14) = _
    after_results)

theorem mid_arg15 (c : Dev nD) : W2 m ρ c (Proc.devRef .tc main_arg15) = (m ((c : Thread nD τ).loc main_arg15)) :=
  (W2_of_ne m ρ c main_arg15 (by decide)).trans (by
    show StableHlo.after hostOps0 (W0 m ρ c) (Proc.devRef .tc main_arg15) = _
    after_results)

set_option maxHeartbeats 4000000 in
/-- The second grid finds the aggregation of the projected features over the edge list. -/
theorem post_agg (c : Dev nD) :
    aggOf (V3 m ρ) c = midK (W2 m ρ c (Proc.devRef .tc main_v12)) (W2 m ρ c (Proc.devRef .tc main_arg3)) := by
  show StableHlo.after hostOps1 (W2 m ρ c) (Proc.devRef .tc main_v56) = _
  after_results_simp
  generalize W2 m ρ c (Proc.devRef .tc main_v12) = xw
  generalize W2 m ρ c (Proc.devRef .tc main_arg3) = ei
  rfl

set_option maxHeartbeats 4000000 in
theorem post_bg (c : Dev nD) (k : Fin 128) : bgOf (V3 m ρ) c (ix2 (0 : Fin 1) k) = (m ((c : Thread nD τ).loc main_arg13)) (ix1 k) := by
  have e : bgOf (V3 m ρ) c = shapeCast S1x128 ((m ((c : Thread nD τ).loc main_arg13)) : S128.Idx → EReal) shapeCasts_S128_S1x128 := by
    show StableHlo.after hostOps1 (W2 m ρ c) (Proc.devRef .tc main_v57) = _
    after_results_simp
    rw [mid_arg13]
    rfl
  rw [e]
  exact shapeCast_a_1a_apply _ _ (0 : Fin 1) k

set_option maxHeartbeats 4000000 in
theorem post_wf (c : Dev nD) : wfOf (V3 m ρ) c = (m ((c : Thread nD τ).loc main_arg14)) := by
  show StableHlo.after hostOps1 (W2 m ρ c) (Proc.devRef .tc main_v58) = _
  after_results_simp
  rw [mid_arg14]
  rfl

set_option maxHeartbeats 4000000 in
theorem post_bf (c : Dev nD) : bfOf (V3 m ρ) c (ix2 (0 : Fin 1) (0 : Fin 1)) = (m ((c : Thread nD τ).loc main_arg15)) (ix1 (0 : Fin 1)) := by
  have e : bfOf (V3 m ρ) c = shapeCast S1x1 ((m ((c : Thread nD τ).loc main_arg15)) : S1.Idx → EReal) shapeCasts_S1_S1x1 := by
    show StableHlo.after hostOps1 (W2 m ρ c) (Proc.devRef .tc main_v59) = _
    after_results_simp
    rw [mid_arg15]
    rfl
  rw [e]
  exact shapeCast_a_1a_apply _ _ (0 : Fin 1) (0 : Fin 1)

/-! ## The result array -/

/-- The program's result array: the score of the aggregated projected features of the arguments. -/
theorem kernel_value (c : Dev nD) :
    W4 m ρ c (Proc.devRef .tc main_v60)
      = score (midK (proj (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg11)) (m ((c : Thread nD τ).loc main_arg10)) (m ((c : Thread nD τ).loc main_arg12)))
          (m ((c : Thread nD τ).loc main_arg3))) (m ((c : Thread nD τ).loc main_arg13)) (m ((c : Thread nD τ).loc main_arg14)) (m ((c : Thread nD τ).loc main_arg15)) := by
  refine (W4_arr m ρ c 4).trans ((tailFinal (V3 m ρ) c).trans ?_)
  funext i
  obtain ⟨n, u, rfl⟩ : ∃ (n : Fin 50000) (u : Fin 1), i = ix2 n u := ⟨i 0, i 1, eq_ix2 i⟩
  rw [score_ix2]
  show scoreRow (fun k => aggOf (V3 m ρ) c (ix2 n k)) (fun k => bgOf (V3 m ρ) c (ix2 (0 : Fin 1) k))
    (fun k => wfOf (V3 m ρ) c (ix2 (0 : Fin 1) k)) (bfOf (V3 m ρ) c (ix2 (0 : Fin 1) (0 : Fin 1))) = _
  unfold scoreAt
  have hagg : aggOf (V3 m ρ) c = midK (proj (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg11)) (m ((c : Thread nD τ).loc main_arg10)) (m ((c : Thread nD τ).loc main_arg12))) (m ((c : Thread nD τ).loc main_arg3)) :=
    (post_agg m ρ c).trans (by rw [mid_xw, mid_arg3])
  have h1 : (fun k : Fin 128 => aggOf (V3 m ρ) c (ix2 n k))
      = fun k : Fin 128 => midK (proj (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg11)) (m ((c : Thread nD τ).loc main_arg10)) (m ((c : Thread nD τ).loc main_arg12))) (m ((c : Thread nD τ).loc main_arg3)) (ix2 n k) :=
    funext fun k => congrFun hagg _
  have h2 : (fun k : Fin 128 => bgOf (V3 m ρ) c (ix2 (0 : Fin 1) k)) = fun k : Fin 128 => (m ((c : Thread nD τ).loc main_arg13)) (ix1 k) :=
    funext fun k => post_bg m ρ c k
  have h3 : (fun k : Fin 128 => wfOf (V3 m ρ) c (ix2 (0 : Fin 1) k))
      = fun k : Fin 128 => (m ((c : Thread nD τ).loc main_arg14)) (ix2 (0 : Fin 1) k) :=
    funext fun k => congrFun (post_wf m ρ c) _
  rw [h1, h2, h3, post_bf]

end Cert.LinkKernel

end
-- ==== Proof.RefValue.lean ====
/-
  The reference program's result as mathematics: the value it computes is the specification's score of the graph
  aggregation of the specification's projected features.

  The reference computes, per node, h = relu (concat (x_i, x_j) · W_catᵀ + b_cat), then two residual blocks
  h ← relu (relu (h · Wᵀ + b) + h · Aᵀ) (512 → 256 → 128), then xw = h · W_gcnᵀ; it aggregates xw over the graph;
  and it returns sigmoid (sigmoid (relu (agg + b_gcn) · W_fcᵀ + b_fc)), each sigmoid written 1 / (1 + exp (−x)).

  Three facts make this the specification.
  * Every matrix product against a transposed weight reads, at entry (n, c), the sum over k of the left operand at
    (n, k) times the weight at (c, k): the specification's `lin`, factors in the same order. For the first layer the
    sum runs over the 1024 concatenated positions; it is the sum over the first 512, where the concatenation holds
    x_i and the weight its first 512 columns, plus the sum over the last 512, where it holds x_j and the weight its
    last 512 columns. A bias broadcast along the rows reads the bias at the column, and relu is the maximum with the
    number of the all-zero word, which is never evaluated.
  * Between the projected features and the aggregated rows the reference applies exactly the operations that the
    aggregation function is made of, to the same edge list: the aggregation is carried as that one function and is
    never opened.
  * The word 0x3F800000 denotes the number 1, so 1 / (1 + exp (−x)) is the logistic function by
    definition, twice.
-/
import proofs.«122741_j77481210020193_1_alg».proof.Proof.Gen.ReferenceIdeal.Read
import proofs.«122741_j77481210020193_1_alg».proof.Proof.Spec
import proofs.«122741_j77481210020193_1_alg».proof.Proof.Mid
import Idealize.ShloMosaic.Lib.ValueLayout
import Idealize.ShloMosaic.PureOps.Ideal.Laws

noncomputable section

open scoped BigOperators

namespace Cert.LinkRef

open Idealize.ShloMosaic Idealize.ShloMosaic.ValueIdx Cert.ReferenceIdeal Cert.ReferenceIdeal.Gen Cert.ReferenceIdeal.Read Cert.LinkSpec Cert.LinkMid

section Layers

variable (x1 x2 : (⟨S50000x512, .f32⟩ : BufTy).Contents (Elt Ideal)) (x3 : (⟨S2x1600000, .i32⟩ : BufTy).Contents (Elt Ideal))
  (x4 : (⟨S512x1024, .f32⟩ : BufTy).Contents (Elt Ideal)) (x5 : (⟨S512, .f32⟩ : BufTy).Contents (Elt Ideal))
  (x6 : (⟨S256x512, .f32⟩ : BufTy).Contents (Elt Ideal)) (x7 : (⟨S256, .f32⟩ : BufTy).Contents (Elt Ideal))
  (x8 : (⟨S256x512, .f32⟩ : BufTy).Contents (Elt Ideal)) (x9 : (⟨S128x256, .f32⟩ : BufTy).Contents (Elt Ideal))
  (x10 : (⟨S128, .f32⟩ : BufTy).Contents (Elt Ideal)) (x11 : (⟨S128x256, .f32⟩ : BufTy).Contents (Elt Ideal))
  (x12 : (⟨S128x128, .f32⟩ : BufTy).Contents (Elt Ideal)) (x13 : (⟨S128, .f32⟩ : BufTy).Contents (Elt Ideal))
  (x14 : (⟨S1x128, .f32⟩ : BufTy).Contents (Elt Ideal)) (x15 : (⟨S1, .f32⟩ : BufTy).Contents (Elt Ideal))

/-- The word 0x3F800000 denotes the number 1. -/
theorem one_word : Ideal.ofBits .f32 0x3F800000#32 = 1 := by
  simp [Ideal.ofBits, Ideal.ieee, -EReal.coe_mul]; norm_num

/-- At a position of the first half the concatenated features hold x_i. -/
theorem cat_lo (n : Fin 50000) (c k : Fin 512) :
    val_main_v0 (F := Ideal) x1 x2 (lidx_main_v2 (ix2 n c) (lo k)) = x1 (ix2 n k) := by
  unfold val_main_v0
  exact concatenate_pair_apply_left (1 : Fin S50000x1024.rank) x1 x2 concatenates_S50000x512_S50000x512_S50000x1024_d1 _ rfl
    (ix2 n k) (fun b => match b with | ⟨0, _⟩ => rfl | ⟨1, _⟩ => rfl)

/-- At a position of the second half the concatenated features hold x_j. -/
theorem cat_hi (n : Fin 50000) (c k : Fin 512) :
    val_main_v0 (F := Ideal) x1 x2 (lidx_main_v2 (ix2 n c) (hi k)) = x2 (ix2 n k) := by
  unfold val_main_v0
  exact concatenate_pair_apply_right (1 : Fin S50000x1024.rank) x1 x2 concatenates_S50000x512_S50000x512_S50000x1024_d1 _ rfl rfl
    (ix2 n k) (fun b hb => match b, hb with | ⟨0, _⟩, _ => rfl | ⟨1, _⟩, hb => absurd rfl hb)
    (by show k.val + 512 = 512 + k.val; omega)

/-- The transposed W_cat at (k, c) is W_cat at (c, k). -/
theorem wcat_at (n : Fin 50000) (c : Fin 512) (k : Fin 1024) :
    val_main_v1 (F := Ideal) x4 (ridx_main_v2 (ix2 n c) k) = x4 (ix2 c k) := by
  rw [val_main_v1_apply]
  exact congrArg x4 (funext fun a => match a with | ⟨0, _⟩ => rfl | ⟨1, _⟩ => rfl)

/-- b_cat broadcast along the rows reads b_cat at the column. -/
theorem bcat_at (n : Fin 50000) (c : Fin 512) : val_main_v4 (F := Ideal) x5 (ix2 n c) = x5 (ix1 c) := by
  rw [val_main_v4_apply, val_main_v3_apply]
  exact congrArg x5 (funext fun a => match a with | ⟨0, _⟩ => rfl)

/-- The first layer at (n, c): the sum over the 1024 concatenated positions splits into the x_i half against the first
    512 columns of W_cat and the x_j half against the last 512. -/
theorem layer0 (n : Fin 50000) (c : Fin 512) :
    val_main_v6 (F := Ideal) x1 x2 x4 x5 (ix2 n c)
      = first (fun k => x1 (ix2 n k)) (fun k => x2 (ix2 n k)) (loHalf x4) (hiHalf x4) (fun q => x5 (ix1 q)) c := by
  rw [val_main_v6_apply, val_main_v5_apply, val_main_v2_apply, bcat_at, val_main_call0_v0_apply, val_main_call0_cst_apply]
  unfold first relu lin LinkSpec.zero
  rw [sum_halves]
  simp only [cat_lo, cat_hi, wcat_at, loHalf_ix2, hiHalf_ix2]
  rfl

/-- The transposed W1 at (k, c) is W1 at (c, k). -/
theorem w1_at (n : Fin 50000) (c : Fin 256) (k : Fin 512) :
    val_main_v7 (F := Ideal) x6 (ridx_main_v8 (ix2 n c) k) = x6 (ix2 c k) := by
  rw [val_main_v7_apply]
  exact congrArg x6 (funext fun a => match a with | ⟨0, _⟩ => rfl | ⟨1, _⟩ => rfl)

/-- The transposed A1 at (k, c) is A1 at (c, k). -/
theorem a1_at (n : Fin 50000) (c : Fin 256) (k : Fin 512) :
    val_main_v13 (F := Ideal) x8 (ridx_main_v14 (ix2 n c) k) = x8 (ix2 c k) := by
  rw [val_main_v13_apply]
  exact congrArg x8 (funext fun a => match a with | ⟨0, _⟩ => rfl | ⟨1, _⟩ => rfl)

/-- b1 broadcast along the rows reads b1 at the column. -/
theorem b1_at (n : Fin 50000) (c : Fin 256) : val_main_v10 (F := Ideal) x7 (ix2 n c) = x7 (ix1 c) := by
  rw [val_main_v10_apply, val_main_v9_apply]
  exact congrArg x7 (funext fun a => match a with | ⟨0, _⟩ => rfl)

/-- The left operand of the product with W1ᵀ at (n, k) is the first layer at (n, k). -/
theorem h0_l8 (n : Fin 50000) (c : Fin 256) (k : Fin 512) :
    val_main_v6 (F := Ideal) x1 x2 x4 x5 (lidx_main_v8 (ix2 n c) k) = val_main_v6 (F := Ideal) x1 x2 x4 x5 (ix2 n k) :=
  congrArg (val_main_v6 (F := Ideal) x1 x2 x4 x5) (funext fun a => match a with | ⟨0, _⟩ => rfl | ⟨1, _⟩ => rfl)

/-- The left operand of the product with A1ᵀ at (n, k) is the first layer at (n, k). -/
theorem h0_l14 (n : Fin 50000) (c : Fin 256) (k : Fin 512) :
    val_main_v6 (F := Ideal) x1 x2 x4 x5 (lidx_main_v14 (ix2 n c) k) = val_main_v6 (F := Ideal) x1 x2 x4 x5 (ix2 n k) :=
  congrArg (val_main_v6 (F := Ideal) x1 x2 x4 x5) (funext fun a => match a with | ⟨0, _⟩ => rfl | ⟨1, _⟩ => rfl)

/-- The first residual block at (n, c), as a function of the first layer's row n. -/
theorem layer1 (n : Fin 50000) (c : Fin 256) :
    val_main_v16 (F := Ideal) x1 x2 x4 x5 x6 x7 x8 (ix2 n c)
      = block x6 x8 (fun q => x7 (ix1 q)) (fun k => val_main_v6 (F := Ideal) x1 x2 x4 x5 (ix2 n k)) c := by
  rw [val_main_v16_apply, val_main_v15_apply, val_main_v12_apply, val_main_v11_apply, val_main_v8_apply, val_main_v14_apply,
    b1_at, val_main_call1_v0_apply, val_main_call1_cst_apply, val_main_call2_v0_apply, val_main_call2_cst_apply]
  unfold block relu lin LinkSpec.zero
  simp only [w1_at, a1_at, h0_l8, h0_l14]
  rfl

/-- The transposed W2 at (k, c) is W2 at (c, k). -/
theorem w2_at (n : Fin 50000) (c : Fin 128) (k : Fin 256) :
    val_main_v17 (F := Ideal) x9 (ridx_main_v18 (ix2 n c) k) = x9 (ix2 c k) := by
  rw [val_main_v17_apply]
  exact congrArg x9 (funext fun a => match a with | ⟨0, _⟩ => rfl | ⟨1, _⟩ => rfl)

/-- The transposed A2 at (k, c) is A2 at (c, k). -/
theorem a2_at (n : Fin 50000) (c : Fin 128) (k : Fin 256) :
    val_main_v23 (F := Ideal) x11 (ridx_main_v24 (ix2 n c) k) = x11 (ix2 c k) := by
  rw [val_main_v23_apply]
  exact congrArg x11 (funext fun a => match a with | ⟨0, _⟩ => rfl | ⟨1, _⟩ => rfl)

/-- b2 broadcast along the rows reads b2 at the column. -/
theorem b2_at (n : Fin 50000) (c : Fin 128) : val_main_v20 (F := Ideal) x10 (ix2 n c) = x10 (ix1 c) := by
  rw [val_main_v20_apply, val_main_v19_apply]
  exact congrArg x10 (funext fun a => match a with | ⟨0, _⟩ => rfl)

/-- The left operand of the product with W2ᵀ at (n, k) is the first block at (n, k). -/
theorem h1_l18 (n : Fin 50000) (c : Fin 128) (k : Fin 256) :
    val_main_v16 (F := Ideal) x1 x2 x4 x5 x6 x7 x8 (lidx_main_v18 (ix2 n c) k)
      = val_main_v16 (F := Ideal) x1 x2 x4 x5 x6 x7 x8 (ix2 n k) :=
  congrArg (val_main_v16 (F := Ideal) x1 x2 x4 x5 x6 x7 x8) (funext fun a => match a with | ⟨0, _⟩ => rfl | ⟨1, _⟩ => rfl)

/-- The left operand of the product with A2ᵀ at (n, k) is the first block at (n, k). -/
theorem h1_l24 (n : Fin 50000) (c : Fin 128) (k : Fin 256) :
    val_main_v16 (F := Ideal) x1 x2 x4 x5 x6 x7 x8 (lidx_main_v24 (ix2 n c) k)
      = val_main_v16 (F := Ideal) x1 x2 x4 x5 x6 x7 x8 (ix2 n k) :=
  congrArg (val_main_v16 (F := Ideal) x1 x2 x4 x5 x6 x7 x8) (funext fun a => match a with | ⟨0, _⟩ => rfl | ⟨1, _⟩ => rfl)

/-- The second residual block at (n, c), as a function of the first block's row n. -/
theorem layer2 (n : Fin 50000) (c : Fin 128) :
    val_main_v26 (F := Ideal) x1 x2 x4 x5 x6 x7 x8 x9 x10 x11 (ix2 n c)
      = block x9 x11 (fun q => x10 (ix1 q)) (fun k => val_main_v16 (F := Ideal) x1 x2 x4 x5 x6 x7 x8 (ix2 n k)) c := by
  rw [val_main_v26_apply, val_main_v25_apply, val_main_v22_apply, val_main_v21_apply, val_main_v18_apply, val_main_v24_apply,
    b2_at, val_main_call3_v0_apply, val_main_call3_cst_apply, val_main_call4_v0_apply, val_main_call4_cst_apply]
  unfold block relu lin LinkSpec.zero
  simp only [w2_at, a2_at, h1_l18, h1_l24]
  rfl

/-- The transposed W_gcn at (k, c) is W_gcn at (c, k). -/
theorem wg_at (n : Fin 50000) (c k : Fin 128) :
    val_main_v27 (F := Ideal) x12 (ridx_main_v28 (ix2 n c) k) = x12 (ix2 c k) := by
  rw [val_main_v27_apply]
  exact congrArg x12 (funext fun a => match a with | ⟨0, _⟩ => rfl | ⟨1, _⟩ => rfl)

/-- The left operand of the product with W_gcnᵀ at (n, k) is the second block at (n, k). -/
theorem h2_l28 (n : Fin 50000) (c k : Fin 128) :
    val_main_v26 (F := Ideal) x1 x2 x4 x5 x6 x7 x8 x9 x10 x11 (lidx_main_v28 (ix2 n c) k)
      = val_main_v26 (F := Ideal) x1 x2 x4 x5 x6 x7 x8 x9 x10 x11 (ix2 n k) :=
  congrArg (val_main_v26 (F := Ideal) x1 x2 x4 x5 x6 x7 x8 x9 x10 x11)
    (funext fun a => match a with | ⟨0, _⟩ => rfl | ⟨1, _⟩ => rfl)

/-- The last linear layer at (n, c), as a function of the second block's row n. -/
theorem layer3 (n : Fin 50000) (c : Fin 128) :
    val_main_v28 (F := Ideal) x1 x2 x4 x5 x6 x7 x8 x9 x10 x11 x12 (ix2 n c)
      = lin x12 (fun k => val_main_v26 (F := Ideal) x1 x2 x4 x5 x6 x7 x8 x9 x10 x11 (ix2 n k)) c := by
  rw [val_main_v28_apply]
  unfold lin
  simp only [wg_at, h2_l28]

/-- The reference's projected features are the specification's: row n goes through the first layer, the two residual
    blocks and the last linear layer, each read entry by entry. -/
theorem proj_ref :
    val_main_v28 (F := Ideal) x1 x2 x4 x5 x6 x7 x8 x9 x10 x11 x12 = proj x1 x2 x4 x5 x6 x8 x7 x9 x11 x10 x12 := by
  funext i
  obtain ⟨n, c, rfl⟩ : ∃ (n : Fin 50000) (c : Fin 128), i = ix2 n c := ⟨i 0, i 1, eq_ix2 i⟩
  rw [proj_ix2]
  unfold projAt projRow
  have h0 : (fun k => val_main_v6 (F := Ideal) x1 x2 x4 x5 (ix2 n k))
      = first (fun k => x1 (ix2 n k)) (fun k => x2 (ix2 n k)) (loHalf x4) (hiHalf x4) (fun q => x5 (ix1 q)) :=
    funext fun k => layer0 x1 x2 x4 x5 n k
  have h1 : (fun k => val_main_v16 (F := Ideal) x1 x2 x4 x5 x6 x7 x8 (ix2 n k))
      = block x6 x8 (fun q => x7 (ix1 q))
          (first (fun k => x1 (ix2 n k)) (fun k => x2 (ix2 n k)) (loHalf x4) (hiHalf x4) (fun q => x5 (ix1 q))) := by
    funext k; rw [layer1, h0]
  have h2 : (fun k => val_main_v26 (F := Ideal) x1 x2 x4 x5 x6 x7 x8 x9 x10 x11 (ix2 n k))
      = block x9 x11 (fun q => x10 (ix1 q)) (block x6 x8 (fun q => x7 (ix1 q))
          (first (fun k => x1 (ix2 n k)) (fun k => x2 (ix2 n k)) (loHalf x4) (hiHalf x4) (fun q => x5 (ix1 q)))) := by
    funext k; rw [layer2, h1]
  rw [layer3, h2]

/-- b_gcn broadcast along the rows reads b_gcn at the column. -/
theorem bg_at (n : Fin 50000) (k : Fin 128) : val_main_v74 (F := Ideal) x13 (ix2 n k) = x13 (ix1 k) := by
  rw [val_main_v74_apply, val_main_v73_apply]
  exact congrArg x13 (funext fun a => match a with | ⟨0, _⟩ => rfl)

/-- The transposed W_fc at (k, 0) is W_fc at (0, k); a one-entry axis has only the coordinate 0. -/
theorem wf_at (n : Fin 50000) (u : Fin 1) (k : Fin 128) :
    val_main_v77 (F := Ideal) x14 (ridx_main_v78 (ix2 n u) k) = x14 (ix2 (0 : Fin 1) k) := by
  obtain rfl : u = 0 := Subsingleton.elim _ _
  rw [val_main_v77_apply]
  exact congrArg x14 (funext fun a => match a with | ⟨0, _⟩ => rfl | ⟨1, _⟩ => rfl)

/-- b_fc broadcast to every row reads its one entry. -/
theorem bf_at (n : Fin 50000) (u : Fin 1) : val_main_v80 (F := Ideal) x15 (ix2 n u) = x15 (ix1 (0 : Fin 1)) := by
  rw [val_main_v80_apply, val_main_v79_apply]
  exact congrArg x15 (funext fun a => match a with | ⟨0, _⟩ => rfl)

/-- The left operand of the product with W_fcᵀ at (n, k) is relu (agg + b_gcn) at (n, k). -/
theorem g_l78 (n : Fin 50000) (u : Fin 1) (k : Fin 128) :
    val_main_v76 (F := Ideal) x1 x2 x3 x4 x5 x6 x7 x8 x9 x10 x11 x12 x13 (lidx_main_v78 (ix2 n u) k)
      = val_main_v76 (F := Ideal) x1 x2 x3 x4 x5 x6 x7 x8 x9 x10 x11 x12 x13 (ix2 n k) :=
  congrArg (val_main_v76 (F := Ideal) x1 x2 x3 x4 x5 x6 x7 x8 x9 x10 x11 x12 x13)
    (funext fun a => match a with | ⟨0, _⟩ => rfl | ⟨1, _⟩ => rfl)

/-- relu (agg + b_gcn) at (n, k). -/
theorem g_at (n : Fin 50000) (k : Fin 128) :
    val_main_v76 (F := Ideal) x1 x2 x3 x4 x5 x6 x7 x8 x9 x10 x11 x12 x13 (ix2 n k)
      = relu (val_main_v72 (F := Ideal) x1 x2 x3 x4 x5 x6 x7 x8 x9 x10 x11 x12 (ix2 n k) + x13 (ix1 k)) := by
  rw [val_main_v76_apply, val_main_v75_apply, bg_at, val_main_call5_v0_apply, val_main_call5_cst_apply]
  rfl

/-- The constant 1 of the inner logistic's denominator. -/
theorem one_at84 (i : S50000x1.Idx) : val_main_v84 (F := Ideal) i = 1 := by
  rw [val_main_v84_apply, val_main_cst_8_apply]; exact one_word
/-- The constant 1 of the inner logistic's numerator. -/
theorem one_at86 (i : S50000x1.Idx) : val_main_v86 (F := Ideal) i = 1 := by
  rw [val_main_v86_apply, val_main_cst_9_apply]; exact one_word
/-- The constant 1 of the outer logistic's denominator. -/
theorem one_at90 (i : S50000x1.Idx) : val_main_v90 (F := Ideal) i = 1 := by
  rw [val_main_v90_apply, val_main_cst_10_apply]; exact one_word
/-- The constant 1 of the outer logistic's numerator. -/
theorem one_at92 (i : S50000x1.Idx) : val_main_v92 (F := Ideal) i = 1 := by
  rw [val_main_v92_apply, val_main_cst_11_apply]; exact one_word

/-- From the aggregated rows on, the reference computes the specification's score: 1 / (1 + exp (−x)) with the
    constant 1 is the logistic function by definition. -/
theorem score_ref :
    val_main_v93 (F := Ideal) x1 x2 x3 x4 x5 x6 x7 x8 x9 x10 x11 x12 x13 x14 x15
      = score (val_main_v72 (F := Ideal) x1 x2 x3 x4 x5 x6 x7 x8 x9 x10 x11 x12) x13 x14 x15 := by
  funext i
  obtain ⟨n, u, rfl⟩ : ∃ (n : Fin 50000) (u : Fin 1), i = ix2 n u := ⟨i 0, i 1, eq_ix2 i⟩
  rw [score_ix2]
  unfold scoreAt scoreRow
  rw [val_main_v93_apply, one_at92, val_main_v91_apply, one_at90, val_main_v89_apply, val_main_v88_apply, val_main_v87_apply,
    one_at86, val_main_v85_apply, one_at84, val_main_v83_apply, val_main_v82_apply, val_main_v81_apply, val_main_v78_apply, bf_at]
  simp only [wf_at, g_l78, g_at]
  generalize val_main_v72 (F := Ideal) x1 x2 x3 x4 x5 x6 x7 x8 x9 x10 x11 x12 = agg
  simp only [Ideal.hostDivf_def, Ideal.hostUnary_exp_def, Ideal.hostNegf_def, Ideal.negf_def, Ideal.addf_def, Ideal.logistic]

/-- Between the projected features and the aggregated rows the reference applies the operations of the aggregation
    function, in its order, to the same edge list: the two sides are the same term. -/
theorem mid_ref :
    val_main_v72 (F := Ideal) x1 x2 x3 x4 x5 x6 x7 x8 x9 x10 x11 x12
      = midR (val_main_v28 (F := Ideal) x1 x2 x4 x5 x6 x7 x8 x9 x10 x11 x12) x3 := rfl

end Layers

/-- The reference's result is the score of the aggregation of the projected features. -/
theorem ref_value (x1 x2 : (⟨S50000x512, .f32⟩ : BufTy).Contents (Elt Ideal)) (x3 : (⟨S2x1600000, .i32⟩ : BufTy).Contents (Elt Ideal)) (x4 : (⟨S512x1024, .f32⟩ : BufTy).Contents (Elt Ideal)) (x5 : (⟨S512, .f32⟩ : BufTy).Contents (Elt Ideal)) (x6 : (⟨S256x512, .f32⟩ : BufTy).Contents (Elt Ideal)) (x7 : (⟨S256, .f32⟩ : BufTy).Contents (Elt Ideal)) (x8 : (⟨S256x512, .f32⟩ : BufTy).Contents (Elt Ideal)) (x9 : (⟨S128x256, .f32⟩ : BufTy).Contents (Elt Ideal)) (x10 : (⟨S128, .f32⟩ : BufTy).Contents (Elt Ideal)) (x11 : (⟨S128x256, .f32⟩ : BufTy).Contents (Elt Ideal)) (x12 : (⟨S128x128, .f32⟩ : BufTy).Contents (Elt Ideal)) (x13 : (⟨S128, .f32⟩ : BufTy).Contents (Elt Ideal)) (x14 : (⟨S1x128, .f32⟩ : BufTy).Contents (Elt Ideal)) (x15 : (⟨S1, .f32⟩ : BufTy).Contents (Elt Ideal)) :
    val_main_v93 (F := Ideal) x1 x2 x3 x4 x5 x6 x7 x8 x9 x10 x11 x12 x13 x14 x15
      = score (midR (proj x1 x2 x4 x5 x6 x8 x7 x9 x11 x10 x12) x3) x13 x14 x15 := by
  rw [score_ref, mid_ref, proj_ref]

end Cert.LinkRef

end
-- ==== Proof.lean ====
/-
  A link predictor on a graph of 50000 nodes: a Pallas implementation against its jnp reference, equal as functions
  on the extended reals.

  Both programs compute, per node, a projected feature row from the node's rows of x_i and x_j (a linear layer on
  their concatenation with a relu, two residual blocks, a last linear layer), aggregate the projected rows over the
  graph's edges with symmetric normalisation and a self-loop, and score each node by relu (agg + b_gcn) against
  W_fc plus b_fc through the logistic function twice.

  The first program runs the projection and the scoring as two grids of kernel points (blocks of 1000 and of 5000
  nodes) with host operations around them; the reference is host operations only. They differ in three ways, none
  of which changes the value on the extended reals: the first program multiplies x_i and x_j by the two column halves
  of W_cat and adds, where the reference multiplies their concatenation by W_cat (a sum over 1024 terms split into
  two sums over 512, true in any additive commutative monoid, so the inputs' finiteness is never used); it changes
  float formats, which is the identity; and it applies the logistic function as one operation where the reference
  writes 1 / (1 + exp (-x)), which is that function's definition. The aggregation between the two grids is the same
  sequence of operations in both programs and is carried as one function of the projected features and the edge list.

  Each program terminates without a fault with its arguments unchanged; the first program's idealization changes
  nothing that needs a justification; and the two idealized programs end with equal result arrays.
-/
import proofs.«122741_j77481210020193_1_alg».proof.Defs
import proofs.«122741_j77481210020193_1_alg».proof.Proof.Gen.Kernel
import proofs.«122741_j77481210020193_1_alg».proof.Proof.Gen.Kernel.Skeleton
import proofs.«122741_j77481210020193_1_alg».proof.Proof.Gen.Kernel.Launch
import proofs.«122741_j77481210020193_1_alg».proof.Proof.Gen.Kernel.Points
import proofs.«122741_j77481210020193_1_alg».proof.Proof.Gen.Kernel.Frame
import proofs.«122741_j77481210020193_1_alg».proof.Proof.Gen.KernelIdeal
import proofs.«122741_j77481210020193_1_alg».proof.Proof.Gen.KernelIdeal.Skeleton
import proofs.«122741_j77481210020193_1_alg».proof.Proof.Gen.KernelIdeal.Launch
import proofs.«122741_j77481210020193_1_alg».proof.Proof.Gen.KernelIdeal.Points
import proofs.«122741_j77481210020193_1_alg».proof.Proof.Gen.KernelIdeal.Frame
import proofs.«122741_j77481210020193_1_alg».proof.Proof.Gen.ReferenceIdeal
import proofs.«122741_j77481210020193_1_alg».proof.Proof.Gen.ReferenceIdeal.Run
import proofs.«122741_j77481210020193_1_alg».proof.Proof.Gen.ReferenceIdeal.Read
import proofs.«122741_j77481210020193_1_alg».proof.Proof.Gen.Pre_finite_inputs
import proofs.«122741_j77481210020193_1_alg».proof.Proof.KRun
import proofs.«122741_j77481210020193_1_alg».proof.Proof.Stretches
import proofs.«122741_j77481210020193_1_alg».proof.Proof.RefValue
import Idealize.ShloMosaic.Adequacy
import Idealize.ShloMosaic.Init

noncomputable section

namespace Cert.Proof

open Idealize.ShloMosaic Idealize.SL.Sem Cert.LinkSpec Cert.LinkMid

/-- The first program as printed terminates without a fault, its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing that carries an obligation. -/
theorem preserves : Cert.preserves_Kernel_KernelIdeal := trivial

/-- From memories that agree on the arguments both idealized programs end with the result array at the score of
    the aggregated projected features of the arguments. -/
theorem algebraic : Cert.algebraic_KernelIdeal_ReferenceIdeal := by
  intro m ρ m' ρ' _ hagree
  refine ⟨fun c => score (midR (proj (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg10)) (m ((c.tc : Thread Cert.KernelIdeal.nD Cert.KernelIdeal.τ).loc Cert.KernelIdeal.main_arg12))) (m ((c.tc : Thread Cert.KernelIdeal.nD Cert.KernelIdeal.τ).loc Cert.KernelIdeal.main_arg3))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩)
      (Cert.LinkKernel.run_result (F := Ideal) m ρ)
    rw [Cert.LinkKernel.kernel_value, Cert.LinkMid.mid_eq]
  · refine (θ_run Cert.ReferenceIdeal.defs _ _).mono (fun r h c => ⟨(h c).1.trans ?_, (h c).2⟩)
      (Cert.ReferenceIdeal.Value.run (F := Ideal) m' ρ')
    obtain ⟨-, h1, h2, h3, h4, h5, h6, h7, h8, h9, h10, h11, h12, h13, h14, h15⟩ := hagree c
    rw [Cert.ReferenceIdeal.Read.val_main_v93_eq, h1, h2, h3, h4, h5, h6, h7, h8, h9, h10, h11, h12, h13, h14, h15,
      Cert.LinkRef.ref_value]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
